-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v126)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v126) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S128x1 .f32) (main_arg9 : FVec F S1 .f32) (main_v33 : IVec S_ 1) : IVec S_ 1 :=
  let main_v34 : FVec F S128x1 .f32 := Host.absf main_arg8
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S3x128 .f32) (main_arg6 : FVec F S3x128 .f32) (main_arg7 : FVec F S3x128 .f32) (main_arg8 : FVec F S128x1 .f32) (main_arg9 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128 .f32) (main_arg5 : FVec F S3x128 .f32) (main_arg6 : FVec F S3x128 .f32) (main_arg7 : FVec F S3x128 .f32) (main_arg8 : FVec F S128x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S2000x128 : Shape := ⟨2, ![2000, 128]⟩
abbrev S800000x128 : Shape := ⟨2, ![800000, 128]⟩
abbrev S1x128 : Shape := ⟨2, ![1, 128]⟩
abbrev S128 : Shape := ⟨1, ![128]⟩
abbrev S1x1 : Shape := ⟨2, ![1, 1]⟩
abbrev S2000x1 : Shape := ⟨2, ![2000, 1]⟩

abbrev nBuf : Space → Nat
  | .hbm => 153
  | .vmem => 64
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S50000x1, .f32⟩
  | 45 => ⟨S50000x128, .f32⟩
  | 46 => ⟨S1x128x128, .f32⟩
  | 47 => ⟨S128x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S800000x1, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S128, .f32⟩
  | 71 => ⟨S1x128, .f32⟩
  | 72 => ⟨S128, .f32⟩
  | 73 => ⟨S1x128, .f32⟩
  | 74 => ⟨S128, .f32⟩
  | 75 => ⟨S1x128, .f32⟩
  | 76 => ⟨S1x128, .f32⟩
  | 77 => ⟨S1x128, .f32⟩
  | 78 => ⟨S1x128, .f32⟩
  | 79 => ⟨S1x128, .f32⟩
  | 80 => ⟨S50000x128, .f32⟩
  | 81 => ⟨S1x128x128, .f32⟩
  | 82 => ⟨S128x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x1, .f32⟩
  | 94 => ⟨S800000x128, .f32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S1x128, .f32⟩
  | 101 => ⟨S128, .f32⟩
  | 102 => ⟨S1x128, .f32⟩
  | 103 => ⟨S128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S50000x128, .f32⟩
  | 116 => ⟨S1x128x128, .f32⟩
  | 117 => ⟨S128x128, .f32⟩
  | 118 => ⟨S50000x128, .f32⟩
  | 119 => ⟨S_, .i32⟩
  | 120 => ⟨S800000, .i32⟩
  | 121 => ⟨S800000, .i1⟩
  | 122 => ⟨S_, .i32⟩
  | 123 => ⟨S800000, .i32⟩
  | 124 => ⟨S800000, .i32⟩
  | 125 => ⟨S800000, .i32⟩
  | 126 => ⟨S800000x1, .i32⟩
  | 127 => ⟨S800000x128, .f32⟩
  | _ => ⟨S50000x128, .f32⟩

abbrev hbmTy0_1 (i : Nat) : BufTy := match i % 128 with
  | 0 => ⟨S800000x1, .f32⟩
  | 1 => ⟨S800000x128, .f32⟩
  | 2 => ⟨S800000x128, .f32⟩
  | 3 => ⟨S_, .f32⟩
  | 4 => ⟨S50000x128, .f32⟩
  | 5 => ⟨S800000x1, .i32⟩
  | 6 => ⟨S50000x128, .f32⟩
  | 7 => ⟨S1x128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S50000x128, .f32⟩
  | 23 => ⟨S1x1, .f32⟩
  | 24 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S2000x128, .f32⟩
  | .local _ .vmem, ⟨37, _⟩ => ⟨S2000x128, .f32⟩
  | .local _ .vmem, ⟨38, _⟩ => ⟨S2000x128, .f32⟩
  | .local _ .vmem, ⟨39, _⟩ => ⟨S2000x128, .f32⟩
  | .local _ .vmem, ⟨40, _⟩ => ⟨S128x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S2000x128, .f32⟩
  | .local _ .vmem, ⟨45, _⟩ => ⟨S2000x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S2000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S2000x128, .f32⟩
  | .local _ .vmem, ⟨57, _⟩ => ⟨S2000x128, .f32⟩
  | .local _ .vmem, ⟨58, _⟩ => ⟨S2000x128, .f32⟩
  | .local _ .vmem, ⟨59, _⟩ => ⟨S2000x128, .f32⟩
  | .local _ .vmem, ⟨60, _⟩ => ⟨S128x1, .f32⟩
  | .local _ .vmem, ⟨61, _⟩ => ⟨S1x1, .f32⟩
  | .local _ .vmem, ⟨62, _⟩ => ⟨S2000x1, .f32⟩
  | .local _ .vmem, ⟨63, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_8 : Ref sig .tc := ⟨.hbm, 84, rfl⟩
abbrev main_v64 : Ref sig .tc := ⟨.hbm, 85, rfl⟩
abbrev main_v65 : Ref sig .tc := ⟨.hbm, 86, rfl⟩
abbrev main_c_9 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_10 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_c_11 : Ref sig .tc := ⟨.hbm, 119, rfl⟩
abbrev main_v96 : Ref sig .tc := ⟨.hbm, 120, rfl⟩
abbrev main_v97 : Ref sig .tc := ⟨.hbm, 121, rfl⟩
abbrev main_c_12 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_13 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg6_0 : Ref sig .tc := ⟨.vmem, 33, rfl⟩
abbrev cc3_stg7_0 : Ref sig .tc := ⟨.vmem, 34, rfl⟩
abbrev cc3_stg8_0 : Ref sig .tc := ⟨.vmem, 35, rfl⟩
abbrev cc3_stg9_0 : Ref sig .tc := ⟨.vmem, 36, rfl⟩
abbrev cc3_stg9_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg2_0 : Ref sig .tc := ⟨.vmem, 41, rfl⟩
abbrev cc4_stg2_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg2_1 : Ref sig .tc := ⟨.vmem, 48, rfl⟩
abbrev cc5_stg3_0 : Ref sig .tc := ⟨.vmem, 49, rfl⟩
abbrev cc5_stg3_1 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg8_0 : Ref sig .tc := ⟨.vmem, 55, rfl⟩
abbrev cc5_stg9_0 : Ref sig .tc := ⟨.vmem, 56, rfl⟩
abbrev cc5_stg9_1 : Ref sig .tc := ⟨.vmem, 57, rfl⟩
abbrev cc6_stg0_0 : Ref sig .tc := ⟨.vmem, 58, rfl⟩
abbrev cc6_stg0_1 : Ref sig .tc := ⟨.vmem, 59, rfl⟩
abbrev cc6_stg1_0 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg3_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem8_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem3_1 : DmaSem sig := 30
abbrev cc3_sem4_0 : DmaSem sig := 31
abbrev cc3_sem5_0 : DmaSem sig := 32
abbrev cc3_sem6_0 : DmaSem sig := 33
abbrev cc3_sem7_0 : DmaSem sig := 34
abbrev cc3_sem8_0 : DmaSem sig := 35
abbrev cc3_sem9_0 : DmaSem sig := 36
abbrev cc3_sem9_1 : DmaSem sig := 37
abbrev cc4_sem0_0 : DmaSem sig := 38
abbrev cc4_sem0_1 : DmaSem sig := 39
abbrev cc4_sem1_0 : DmaSem sig := 40
abbrev cc4_sem2_0 : DmaSem sig := 41
abbrev cc4_sem2_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem2_1 : DmaSem sig := 48
abbrev cc5_sem3_0 : DmaSem sig := 49
abbrev cc5_sem3_1 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem8_0 : DmaSem sig := 55
abbrev cc5_sem9_0 : DmaSem sig := 56
abbrev cc5_sem9_1 : DmaSem sig := 57
abbrev cc6_sem0_0 : DmaSem sig := 58
abbrev cc6_sem0_1 : DmaSem sig := 59
abbrev cc6_sem1_0 : DmaSem sig := 60
abbrev cc6_sem2_0 : DmaSem sig := 61
abbrev cc6_sem3_0 : DmaSem sig := 62
abbrev cc6_sem3_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S2000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S2000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 2 → Memref sig .tc .vmem S2000x128 .f32 := fun | 0 => Memref.whole cc5_stg9_0 | 1 => Memref.whole cc5_stg9_1 | ⟨_ + 2, h⟩ => absurd h (Nat.not_lt.2 (Nat.le_add_left _ _))
abbrev sem5_9 : Fin 2 → DmaSem sig := fun | 0 => cc5_sem9_0 | 1 => cc5_sem9_1 | ⟨_ + 2, h⟩ => absurd h (Nat.not_lt.2 (Nat.le_add_left _ _))
abbrev reads5_9 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x1_S2000x1_1_0_0_1_n_n_wf : DotDims.WF S2000x128 S128x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S50000x128.size a
  hwx1_8 : ∀ i : grid1.Coords, EltTy.bits .f32 = 32 ∨ (Rect.block (s := S50000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x128.size a ≤ S1x128.size a
  hwx3_8 : ∀ i : grid3.Coords, EltTy.bits .f32 = 32 ∨ (Rect.block (s := S1x128) S1x128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S2000x128.size a ≤ S50000x128.size a
  hwx3_9 : ∀ i : grid3.Coords, EltTy.bits .f32 = 32 ∨ (Rect.block (s := S50000x128) S2000x128.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .f32 = 32 ∨ (Rect.block (s := S50000x128) S2000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x128.size a ≤ S50000x128.size a
  hwx5_3 : ∀ i : grid5.Coords, EltTy.bits .f32 = 32 ∨ (Rect.block (s := S50000x128) S2000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S1x128.size a ≤ S1x128.size a
  hwx5_8 : ∀ i : grid5.Coords, EltTy.bits .f32 = 32 ∨ (Rect.block (s := S1x128) S1x128.size (cc5_transform_8 i) (hinb5_8 i)).WholeWords (EltTy.packing .f32)
  hstage5_9 : ∀ j, (stage5_9 j).IsWhole
  nbuf5_9 : grid5.bufCount reads5_9 false = 2
  hreads5_9 : ∀ i i' : grid5.Coords, (∀ a, reads5_9 a = true → i a = i' a) → cc5_transform_9 i = cc5_transform_9 i'
  hinb5_9 : ∀ (i : grid5.Coords) a, (cc5_transform_9 i a + 1) * S2000x128.size a ≤ S50000x128.size a
  hwx5_9 : ∀ i : grid5.Coords, EltTy.bits .f32 = 32 ∨ (Rect.block (s := S50000x128) S2000x128.size (cc5_transform_9 i) (hinb5_9 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x1.size a ≤ S50000x1.size a
  hwx6_3 : ∀ i : grid6.Coords, EltTy.bits .f32 = 32 ∨ (Rect.block (s := S50000x1) S2000x1.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v55) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v56) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v57) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v58) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v59) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v60) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v62) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v63) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v76) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v60) S2000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v28) S2000x128.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v87) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v88) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v89) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v90) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v91) S1x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v92) S2000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v92) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v95) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v108) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v95) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v92) S2000x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v28) S2000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v119) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v120) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v121) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v122) S1x128.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v123) S1x128.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v124) S2000x128.size cc5_transform_9 reads5_9 true false 2 stage5_9 sem5_9
    hrank5 hreads5_9 hinb5_9 nbuf5_9 (Memref.isWhole_whole _) hwx5_9 hstage5_9

abbrev win5 : Fin 10 → Pipeline.Window sig grid5 := fun | 0 => win5_0 | 1 => win5_1 | 2 => win5_2 | 3 => win5_3 | 4 => win5_4 | 5 => win5_5 | 6 => win5_6 | 7 => win5_7 | 8 => win5_8 | 9 => win5_9 | ⟨_ + 10, h⟩ => absurd h (Nat.not_lt.2 (Nat.le_add_left _ _))
abbrev spec5 : Fin 10 → Pipeline.WinSpec sig grid5.rank := fun w => (win5 w).toWinSpec

abbrev win6_0 : Pipeline.Window sig grid6 :=
  Pipeline.Window.ofSpec (Memref.whole main_v124) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v125) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v126) S2000x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S50000x1 : Shape := ⟨2, ![50000, 1]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128, .f32⟩
  | 5 => ⟨S3x128, .f32⟩
  | 6 => ⟨S3x128, .f32⟩
  | 7 => ⟨S3x128, .f32⟩
  | 8 => ⟨S128x1, .f32⟩
  | 9 => ⟨S1, .f32⟩
  | 10 => ⟨S1x800000, .i32⟩
  | 11 => ⟨S800000, .i32⟩
  | 12 => ⟨S1x800000, .i32⟩
  | 13 => ⟨S800000, .i32⟩
  | 14 => ⟨S_, .f32⟩
  | 15 => ⟨S800000, .f32⟩
  | 16 => ⟨S_, .f32⟩
  | 17 => ⟨S50000, .f32⟩
  | 18 => ⟨S800000x1, .i32⟩
  | 19 => ⟨S50000, .f32⟩
  | 20 => ⟨S_, .f32⟩
  | 21 => ⟨S50000, .f32⟩
  | 22 => ⟨S50000, .f32⟩
  | 23 => ⟨S50000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000, .f32⟩
  | 42 => ⟨S800000, .f32⟩
  | 43 => ⟨S50000, .f32⟩
  | 44 => ⟨S1x128x128, .f32⟩
  | 45 => ⟨S128x128, .f32⟩
  | 46 => ⟨S1x128, .f32⟩
  | 47 => ⟨S128, .f32⟩
  | 48 => ⟨S50000x128, .f32⟩
  | 49 => ⟨S800000x1, .f32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x128, .f32⟩
  | 59 => ⟨S800000x128, .f32⟩
  | 60 => ⟨S800000x128, .f32⟩
  | 61 => ⟨S_, .f32⟩
  | 62 => ⟨S50000x128, .f32⟩
  | 63 => ⟨S800000x1, .i32⟩
  | 64 => ⟨S50000x128, .f32⟩
  | 65 => ⟨S50000x1, .f32⟩
  | 66 => ⟨S50000x128, .f32⟩
  | 67 => ⟨S50000x128, .f32⟩
  | 68 => ⟨S50000x128, .f32⟩
  | 69 => ⟨S1x128, .f32⟩
  | 70 => ⟨S50000x128, .f32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S50000x128, .f32⟩
  | 77 => ⟨S1x128, .f32⟩
  | 78 => ⟨S128, .f32⟩
  | 79 => ⟨S_, .f32⟩
  | 80 => ⟨S128, .f32⟩
  | 81 => ⟨S128, .f32⟩
  | 82 => ⟨S128, .f32⟩
  | 83 => ⟨S1x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .f32⟩
  | 99 => ⟨S1x128x128, .f32⟩
  | 100 => ⟨S128x128, .f32⟩
  | 101 => ⟨S1x128, .f32⟩
  | 102 => ⟨S128, .f32⟩
  | 103 => ⟨S50000x128, .f32⟩
  | 104 => ⟨S800000x1, .f32⟩
  | 105 => ⟨S_, .i32⟩
  | 106 => ⟨S800000, .i32⟩
  | 107 => ⟨S800000, .i1⟩
  | 108 => ⟨S_, .i32⟩
  | 109 => ⟨S800000, .i32⟩
  | 110 => ⟨S800000, .i32⟩
  | 111 => ⟨S800000, .i32⟩
  | 112 => ⟨S800000x1, .i32⟩
  | 113 => ⟨S800000x128, .f32⟩
  | 114 => ⟨S800000x128, .f32⟩
  | 115 => ⟨S800000x128, .f32⟩
  | 116 => ⟨S_, .f32⟩
  | 117 => ⟨S50000x128, .f32⟩
  | 118 => ⟨S800000x1, .i32⟩
  | 119 => ⟨S50000x128, .f32⟩
  | 120 => ⟨S50000x1, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S128, .f32⟩
  | 2 => ⟨S1x128, .f32⟩
  | 3 => ⟨S50000x128, .f32⟩
  | 4 => ⟨S50000x128, .f32⟩
  | 5 => ⟨S1x128, .f32⟩
  | 6 => ⟨S128, .f32⟩
  | 7 => ⟨S_, .f32⟩
  | 8 => ⟨S128, .f32⟩
  | 9 => ⟨S128, .f32⟩
  | 10 => ⟨S128, .f32⟩
  | 11 => ⟨S1x128, .f32⟩
  | 12 => ⟨S50000x128, .f32⟩
  | 13 => ⟨S50000x128, .f32⟩
  | 14 => ⟨S1x128, .f32⟩
  | 15 => ⟨S128, .f32⟩
  | 16 => ⟨S1x128, .f32⟩
  | 17 => ⟨S50000x128, .f32⟩
  | 18 => ⟨S50000x128, .f32⟩
  | 19 => ⟨S1x128, .f32⟩
  | 20 => ⟨S128, .f32⟩
  | 21 => ⟨S1x128, .f32⟩
  | 22 => ⟨S50000x128, .f32⟩
  | 23 => ⟨S50000x128, .f32⟩
  | 24 => ⟨S_, .f32⟩
  | 25 => ⟨S50000x128, .f32⟩
  | 26 => ⟨S50000x128, .f32⟩
  | 27 => ⟨S1x128x128, .f32⟩
  | 28 => ⟨S128x128, .f32⟩
  | 29 => ⟨S1x128, .f32⟩
  | 30 => ⟨S128, .f32⟩
  | 31 => ⟨S50000x128, .f32⟩
  | 32 => ⟨S800000x1, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x1, .f32⟩
  | 49 => ⟨S50000x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S50000x128, .f32⟩
  | 56 => ⟨S1x128, .f32⟩
  | 57 => ⟨S128, .f32⟩
  | 58 => ⟨S1x128, .f32⟩
  | 59 => ⟨S50000x128, .f32⟩
  | 60 => ⟨S50000x128, .f32⟩
  | 61 => ⟨S1x128, .f32⟩
  | 62 => ⟨S128, .f32⟩
  | 63 => ⟨S_, .f32⟩
  | 64 => ⟨S128, .f32⟩
  | 65 => ⟨S128, .f32⟩
  | 66 => ⟨S128, .f32⟩
  | 67 => ⟨S1x128, .f32⟩
  | 68 => ⟨S50000x128, .f32⟩
  | 69 => ⟨S50000x128, .f32⟩
  | 70 => ⟨S1x128, .f32⟩
  | 71 => ⟨S128, .f32⟩
  | 72 => ⟨S1x128, .f32⟩
  | 73 => ⟨S50000x128, .f32⟩
  | 74 => ⟨S50000x128, .f32⟩
  | 75 => ⟨S1x128, .f32⟩
  | 76 => ⟨S128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .f32⟩
  | 83 => ⟨S50000x1, .f32⟩
  | 84 => ⟨S1x1, .f32⟩
  | 85 => ⟨S50000x1, .f32⟩
  | 86 => ⟨S50000x1, .f32⟩
  | 87 => ⟨S50000x1, .f32⟩
  | 88 => ⟨S50000x1, .f32⟩
  | 89 => ⟨S_, .f32⟩
  | 90 => ⟨S50000x1, .f32⟩
  | 91 => ⟨S50000x1, .f32⟩
  | 92 => ⟨S_, .f32⟩
  | 93 => ⟨S50000x1, .f32⟩
  | 94 => ⟨S50000x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_c_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_8 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_call0_cst : Ref sig .tc := ⟨.hbm, 96, rfl⟩
abbrev main_call0_v0 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_c_9 : Ref sig .tc := ⟨.hbm, 105, rfl⟩
abbrev main_v82 : Ref sig .tc := ⟨.hbm, 106, rfl⟩
abbrev main_v83 : Ref sig .tc := ⟨.hbm, 107, rfl⟩
abbrev main_c_10 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_11 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_12 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_call1_cst : Ref sig .tc := ⟨.hbm, 152, rfl⟩
abbrev main_call1_v0 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_c_13 : Ref sig .tc := ⟨.hbm, 161, rfl⟩
abbrev main_v132 : Ref sig .tc := ⟨.hbm, 162, rfl⟩
abbrev main_v133 : Ref sig .tc := ⟨.hbm, 163, rfl⟩
abbrev main_c_14 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_cst_15 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_v144 : Ref sig .tc := ⟨.hbm, 176, rfl⟩
abbrev main_v145 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_cst_16 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_v174 : Ref sig .tc := ⟨.hbm, 207, rfl⟩
abbrev main_call2_cst : Ref sig .tc := ⟨.hbm, 208, rfl⟩
abbrev main_call2_v0 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_v179 : Ref sig .tc := ⟨.hbm, 214, rfl⟩
abbrev main_v180 : Ref sig .tc := ⟨.hbm, 215, rfl⟩
abbrev main_v181 : Ref sig .tc := ⟨.hbm, 216, rfl⟩
abbrev main_cst_17 : Ref sig .tc := ⟨.hbm, 217, rfl⟩
abbrev main_v182 : Ref sig .tc := ⟨.hbm, 218, rfl⟩
abbrev main_v183 : Ref sig .tc := ⟨.hbm, 219, rfl⟩
abbrev main_cst_18 : Ref sig .tc := ⟨.hbm, 220, rfl⟩
abbrev main_v184 : Ref sig .tc := ⟨.hbm, 221, rfl⟩
abbrev main_v185 : Ref sig .tc := ⟨.hbm, 222, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x1_S50000x1_1_0_0_1_n_n_wf : DotDims.WF S50000x128 S128x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.KRun.lean ====
/-
  The idealized kernel's run with its result NAMED.  The program is seven pipelined regions among stretches of host
  operations; its memory at every segment boundary is a fold from the launch memory (the contents `W1` … `W14`).
  The launch theorem over the segments leaves every unscoped buffer at the last boundary's contents, so the result
  buffer ends at `W14` read at the result, and the ten argument arrays end as launched.
-/
import proofs.«104718_j31121333027185_1_alg».proof.Proof.Gen.KernelIdeal.Frame

set_option maxRecDepth 16384

noncomputable section

namespace Cert.KernelIdeal.KRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents and every argument array ends as launched. -/
theorem run_result : θ_run defs (onTc (τ := τ) (main (F := F))) ⟨m, fun _ => 0, ρ⟩ (fun r => ∀ c : Dev nD,
      r.2.mem ((c.tc : Thread nD τ).loc main_v126) = W14 m ρ c (Proc.devRef .tc main_v126)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v126 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.KRun

end
-- ==== Proof.LibReshapeAt.lean ====
/-
  A row-major reshape read at coordinates. A reshape keeps an element's row-major position, so the entry `(p', q')` of
  the `P' × Q'` result is the operand's entry at the same position: the entry `(p, q)` of a `P × Q` operand when
  `p · Q + q = p' · Q' + q'`, the entry `(a, b, c)` of an `A × B × C` operand when `(a · B + b) · C + c = p' · Q' + q'`.
  The position equations are left to the caller: with literal extents they are linear arithmetic.
-/
import Idealize.ShloMosaic.Lib.Pipeline.Value
import Idealize.ShloMosaic.Lib.ValueIdx

noncomputable section

namespace Cert.LibReshapeAt

open Idealize.ShloMosaic Idealize.ShloMosaic.ValueIdx

/-- A rank-2 array reshaped to rank 2, at `(p', q')`. -/
theorem cast22 {α : Type} {P Q P' Q' : ℕ} (x : (⟨2, ![P, Q]⟩ : Shape).Idx → α)
    (h : (⟨2, ![P, Q]⟩ : Shape).ShapeCasts ⟨2, ![P', Q']⟩) (p' : Fin P') (q' : Fin Q') (p : Fin P) (q : Fin Q)
    (hk : p.val * Q + q.val = p'.val * Q' + q'.val) :
    shapeCast ⟨2, ![P', Q']⟩ x h (ix2 p' q') = x (ix2 p q) :=
  shapeCast_apply x h (ix2 p' q') (ix2 p q) (by rw [Shape.rowMajor_val_two, Shape.rowMajor_val_two]; exact hk)

/-- A rank-3 array reshaped to rank 2, at `(p', q')`. -/
theorem cast32 {α : Type} {A B C P' Q' : ℕ} (x : (⟨3, ![A, B, C]⟩ : Shape).Idx → α)
    (h : (⟨3, ![A, B, C]⟩ : Shape).ShapeCasts ⟨2, ![P', Q']⟩) (p' : Fin P') (q' : Fin Q') (a : Fin A) (b : Fin B) (c : Fin C)
    (hk : (a.val * B + b.val) * C + c.val = p'.val * Q' + q'.val) :
    shapeCast ⟨2, ![P', Q']⟩ x h (ix2 p' q') = x (ix3 a b c) :=
  shapeCast_apply x h (ix2 p' q') (ix3 a b c) (by rw [Shape.rowMajor_val_three, Shape.rowMajor_val_two]; exact hk)

/-- A vector reshaped to one row, at `(0, q)`. -/
theorem cast12 {α : Type} {N : ℕ} (x : (⟨1, ![N]⟩ : Shape).Idx → α)
    (h : (⟨1, ![N]⟩ : Shape).ShapeCasts ⟨2, ![1, N]⟩) (q : Fin N) :
    shapeCast ⟨2, ![1, N]⟩ x h (ix2 (0 : Fin 1) q) = x (ix1 q) :=
  shapeCast_apply x h (ix2 (0 : Fin 1) q) (ix1 q) (by
    rw [Shape.rowMajor_val_one, Shape.rowMajor_val_two]
    show q.val = 0 * N + q.val
    omega)

end Cert.LibReshapeAt

end
-- ==== Proof.ProjRegion.lean ====
import proofs.«104718_j31121333027185_1_alg».proof.Proof.Gen.KernelIdeal.Frame
import proofs.«104718_j31121333027185_1_alg».proof.Proof.Gen.ReferenceIdeal.Read
import Idealize.ShloMosaic.Lib.Pipeline.Value
import Idealize.ShloMosaic.Lib.ValueIdx
import Idealize.ShloMosaic.PureOps.Ideal.Laws

/-! # The three projection regions

Each of the three regions multiplies a [50000,128] array by a [128,128] one, 2000 rows at a point over 25 points.
For each: one entry of a point's block is a sum of 128 products; the block a point writes back is that point's rows
of the whole product; the 25 blocks cover the array; so the array after the region is the product, which is what the
reference's `dot_general` of the same two arrays is, entry by entry. -/

noncomputable section

namespace Cert.KernelIdeal.ProjRegion

open Cert.KernelIdeal Cert.KernelIdeal.Gen Idealize.ShloMosaic Idealize.ShloMosaic.TcCoe Idealize.SL.Sem
open Idealize.ShloMosaic.Pipeline (Dat)
open Idealize.ShloMosaic.ValueIdx

/-! ## One entry of a block's product -/

/-- The left factor is read at the output's row … -/
theorem lhs_row (i : S2000x128.Idx) (r : dot_S2000x128_S128x128_S2000x128_1_0_0_1_n_n.contr.Idx) :
    (dot_S2000x128_S128x128_S2000x128_1_0_0_1_n_n.lhsIdx i r 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the contraction's column; -/
theorem lhs_col (i : S2000x128.Idx) (r : dot_S2000x128_S128x128_S2000x128_1_0_0_1_n_n.contr.Idx) :
    (dot_S2000x128_S128x128_S2000x128_1_0_0_1_n_n.lhsIdx i r 1).val = (r ⟨0, by decide⟩).val :=
  dot_S2000x128_S128x128_S2000x128_1_0_0_1_n_n.lhsIdx_val_of_single rfl i r
/-- the right factor at the contraction's row … -/
theorem rhs_row (i : S2000x128.Idx) (r : dot_S2000x128_S128x128_S2000x128_1_0_0_1_n_n.contr.Idx) :
    (dot_S2000x128_S128x128_S2000x128_1_0_0_1_n_n.rhsIdx i r 0).val = (r ⟨0, by decide⟩).val :=
  dot_S2000x128_S128x128_S2000x128_1_0_0_1_n_n.rhsIdx_val_of_single rfl i r
/-- … and the output's column. -/
theorem rhs_col (i : S2000x128.Idx) (r : dot_S2000x128_S128x128_S2000x128_1_0_0_1_n_n.contr.Idx) :
    (dot_S2000x128_S128x128_S2000x128_1_0_0_1_n_n.rhsIdx i r 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- One entry of a [2000,128] x [128,128] product accumulated into zero: row p of the left factor against
    column q of the right one. -/
theorem matmul_entry (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  show FloatOps.matmul dot_S2000x128_S128x128_S2000x128_1_0_0_1_n_n none x w (constant (F := Ideal) S2000x128 .f32 0x00000000#32) (ix2 p q) = _
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first projection's payload at an entry. -/
theorem pay0_entry (x : Vec Ideal S2000x128 .f32) (w : Vec Ideal S128x128 .f32) (p : Fin 2000) (q : Fin 128) :
    k0_pay1 (F := Ideal) x w (ix2 p q) = ∑ k : Fin 128, x (ix2 p k) * w (ix2 k q) := by
  unfold k0_pay1
  simp only [shapeCast_self]
  exact matmul_entry _ _ p q

/-- The second projection's payload at an entry. -/
theorem pay2_entry (x : Vec Ideal S2000x128 .f32) (w : Vec Ideal S128x128 .f32) (p : Fin 2000) (q : Fin 128) :
    k2_pay1 (F := Ideal) x w (ix2 p q) = ∑ k : Fin 128, x (ix2 p k) * w (ix2 k q) := by
  unfold k2_pay1
  simp only [shapeCast_self]
  exact matmul_entry _ _ p q

/-- The third projection's payload at an entry. -/
theorem pay4_entry (x : Vec Ideal S2000x128 .f32) (w : Vec Ideal S128x128 .f32) (p : Fin 2000) (q : Fin 128) :
    k4_pay1 (F := Ideal) x w (ix2 p q) = ∑ k : Fin 128, x (ix2 p k) * w (ix2 k q) := by
  unfold k4_pay1
  simp only [shapeCast_self]
  exact matmul_entry _ _ p q

/-! ## The whole-array product -/

/-- Row `(i 0)` of `x` against column `(i 1)` of `w`: the product of a [50000,128] array with a [128,128] one, entry by entry. -/
def prod (x : S50000x128.Idx → EReal) (w : S128x128.Idx → EReal) : S50000x128.Idx → EReal :=
  fun i => ∑ k : Fin 128, x (ix2 (⟨(i 0).val, (i 0).isLt⟩ : Fin 50000) k) * w (ix2 k (⟨(i 1).val, (i 1).isLt⟩ : Fin 128))

/-- A sum of products is that entry once its factors are the row's and the column's. -/
theorem prod_of_factors (x : S50000x128.Idx → EReal) (w : S128x128.Idx → EReal) (i : S50000x128.Idx)
    (xr wc : Fin 128 → EReal)
    (hx : ∀ k, xr k = x (ix2 (⟨(i 0).val, (i 0).isLt⟩ : Fin 50000) k))
    (hw : ∀ k, wc k = w (ix2 k (⟨(i 1).val, (i 1).isLt⟩ : Fin 128))) :
    ∑ k : Fin 128, xr k * wc k = prod x w i :=
  Finset.sum_congr rfl fun k _ => by rw [hx k, hw k]

theorem zero_off : (![0, 0] : Fin 2 → Nat) = fun _ => 0 := funext fun a => by fin_cases a <;> rfl

/-! ## Region 0 -/

/-- The index maps over the grid: the left factor's row block moves with the output's, its column block and both of the
    right factor's stay at 0, and the output's row block is the point. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every row block is some point's. -/
theorem idx_onto0 : ∀ (q0 : Fin 25), ∃ t : Fin cfg0.N, win0_2.index t = ![q0.val, 0] :=
  (by decide +kernel : ∀ (q0 : Fin 25), ∃ t : Fin grid0.N, win0_2.index t = ![q0.val, 0])

/-- What point `t` writes back is block `t` of the product of the two arrays the region finds. -/
theorem flushed0_eq (V : (c : Dev nD) → (b : Ref sig .tc) → Buf (Elt Ideal) ((c : Thread nD τ).loc b)) (c : Dev nD) (t : Fin cfg0.N) :
    (dat0 (F := Ideal) V c).flushed 2 t
      = ((cfg0.win 2).blk t).view.read (Elt Ideal) (prod (V c main_arg0) (V c main_v30)) := by
  show (cfg0.win 2).cut (grid0.coords t) ((dat0 (F := Ideal) V c).after 2 t) = _
  rw [after0_2]
  unfold out0_2
  rw [View.canon_unit_zero zero_off]
  simp only [View.ld_unit_zero (S := S2000x128) zero_off, View.ld_unit_zero (S := S128x128) zero_off]
  obtain ⟨e0, e1, e2, e3, e4, e5⟩ := idx_facts0 t
  funext j
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q)
      = prod (V c main_arg0) (V c main_v30) (((cfg0.win 2).blk t).view.emb (ix2 p q))
  refine (pay0_entry _ _ p q).trans ?_
  refine prod_of_factors _ _ _ _ _ (fun k => ?_) (fun k => ?_)
  · show V c main_arg0 (((cfg0.win 0).blk t).view.emb (ix2 p k)) = _
    refine congrArg (V c main_arg0) (funext fun a => Fin.ext ?_)
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · show V c main_v30 (((cfg0.win 1).blk t).view.emb (ix2 k q)) = _
    refine congrArg (V c main_v30) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- An index of the array is in point `t`'s block iff each coordinate is in the block's range on its axis. -/
theorem mem_blk0 (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v31).slice (win0_2.rect t)).set ↔ _
  rw [View.set_slice_whole, Rect.mem_set_unit]
  exact Iff.rfl

/-- Row `r` is in the block of point `r / 2000`. -/
theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := idx_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The output array after the region: the product of the two arrays the region finds. -/
theorem final0 (V : (c : Dev nD) → (b : Ref sig .tc) → Buf (Elt Ideal) ((c : Thread nD τ).loc b)) (c : Dev nD) :
    (dat0 (F := Ideal) V c).arrAt 2 cfg0.N = prod (V c main_arg0) (V c main_v30) :=
  (dat0 (F := Ideal) V c).arrAt_eq_of_cover 2 (prod (V c main_arg0) (V c main_v30)) (fun t _ => flushed0_eq V c t) cover0

/-- The reference's first projection is that product. -/
theorem ref0_eq (x0 : (⟨Cert.ReferenceIdeal.S50000x128, .f32⟩ : BufTy).Contents (Elt Ideal))
    (x2 : (⟨Cert.ReferenceIdeal.S3x128x128, .f32⟩ : BufTy).Contents (Elt Ideal)) :
    Cert.ReferenceIdeal.Read.val_main_v31 (F := Ideal) x0 x2
      = prod x0 (Cert.ReferenceIdeal.Read.val_main_v28 (F := Ideal) x2) := by
  funext i
  rw [Cert.ReferenceIdeal.Read.val_main_v31_apply]
  have el : ∀ k : Fin 128, Cert.ReferenceIdeal.Read.lidx_main_v31 i k = ix2 (⟨(i 0).val, (i 0).isLt⟩ : Fin 50000) k :=
    fun k => funext fun a => Fin.ext (by match a with | ⟨0, _⟩ => rfl | ⟨1, _⟩ => rfl)
  have er : ∀ k : Fin 128, Cert.ReferenceIdeal.Read.ridx_main_v31 i k = ix2 k (⟨(i 1).val, (i 1).isLt⟩ : Fin 128) :=
    fun k => funext fun a => Fin.ext (by match a with | ⟨0, _⟩ => rfl | ⟨1, _⟩ => rfl)
  unfold prod
  exact Finset.sum_congr rfl fun k _ => by rw [el k, er k]

theorem proj0_eq (V : (c : Dev nD) → (b : Ref sig .tc) → Buf (Elt Ideal) ((c : Thread nD τ).loc b)) (c : Dev nD)
    (x0 : (⟨Cert.ReferenceIdeal.S50000x128, .f32⟩ : BufTy).Contents (Elt Ideal))
    (x2 : (⟨Cert.ReferenceIdeal.S3x128x128, .f32⟩ : BufTy).Contents (Elt Ideal))
    (h0 : V c main_arg0 = x0) (h1 : V c main_v30 = Cert.ReferenceIdeal.Read.val_main_v28 (F := Ideal) x2) :
    (dat0 (F := Ideal) V c).arrAt 2 cfg0.N = Cert.ReferenceIdeal.Read.val_main_v31 (F := Ideal) x0 x2 := by
  rw [final0 V c, ref0_eq x0 x2, h0, h1]
/-! ## Region 2 -/

/-- The index maps over the grid: the left factor's row block moves with the output's, its column block and both of the
    right factor's stay at 0, and the output's row block is the point. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- Every row block is some point's. -/
theorem idx_onto2 : ∀ (q0 : Fin 25), ∃ t : Fin cfg2.N, win2_2.index t = ![q0.val, 0] :=
  (by decide +kernel : ∀ (q0 : Fin 25), ∃ t : Fin grid2.N, win2_2.index t = ![q0.val, 0])

/-- What point `t` writes back is block `t` of the product of the two arrays the region finds. -/
theorem flushed2_eq (V : (c : Dev nD) → (b : Ref sig .tc) → Buf (Elt Ideal) ((c : Thread nD τ).loc b)) (c : Dev nD) (t : Fin cfg2.N) :
    (dat2 (F := Ideal) V c).flushed 2 t
      = ((cfg2.win 2).blk t).view.read (Elt Ideal) (prod (V c main_v60) (V c main_v62)) := by
  show (cfg2.win 2).cut (grid2.coords t) ((dat2 (F := Ideal) V c).after 2 t) = _
  rw [after2_2]
  unfold out2_2
  rw [View.canon_unit_zero zero_off]
  simp only [View.ld_unit_zero (S := S2000x128) zero_off, View.ld_unit_zero (S := S128x128) zero_off]
  obtain ⟨e0, e1, e2, e3, e4, e5⟩ := idx_facts2 t
  funext j
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q)
      = prod (V c main_v60) (V c main_v62) (((cfg2.win 2).blk t).view.emb (ix2 p q))
  refine (pay2_entry _ _ p q).trans ?_
  refine prod_of_factors _ _ _ _ _ (fun k => ?_) (fun k => ?_)
  · show V c main_v60 (((cfg2.win 0).blk t).view.emb (ix2 p k)) = _
    refine congrArg (V c main_v60) (funext fun a => Fin.ext ?_)
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * k.val = k.val; omega
  · show V c main_v62 (((cfg2.win 1).blk t).view.emb (ix2 k q)) = _
    refine congrArg (V c main_v62) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega

/-- An index of the array is in point `t`'s block iff each coordinate is in the block's range on its axis. -/
theorem mem_blk2 (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v63).slice (win2_2.rect t)).set ↔ _
  rw [View.set_slice_whole, Rect.mem_set_unit]
  exact Iff.rfl

/-- Row `r` is in the block of point `r / 2000`. -/
theorem cover2 (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := idx_onto2 ⟨(i 0).val / 2000, by omega⟩
  have q0 : win2_2.index t (0 : Fin 2) = (i 0).val / 2000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The output array after the region: the product of the two arrays the region finds. -/
theorem final2 (V : (c : Dev nD) → (b : Ref sig .tc) → Buf (Elt Ideal) ((c : Thread nD τ).loc b)) (c : Dev nD) :
    (dat2 (F := Ideal) V c).arrAt 2 cfg2.N = prod (V c main_v60) (V c main_v62) :=
  (dat2 (F := Ideal) V c).arrAt_eq_of_cover 2 (prod (V c main_v60) (V c main_v62)) (fun t _ => flushed2_eq V c t) cover2

/-- The reference's second projection is that product. -/
theorem ref2_eq (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal)) :
    Cert.ReferenceIdeal.Read.val_main_v80 (F := Ideal) x0 x1 x2 x3 x4 x5 x6 x7
      = prod (Cert.ReferenceIdeal.Read.val_main_v75 (F := Ideal) x0 x1 x2 x3 x4 x5 x6 x7) (Cert.ReferenceIdeal.Read.val_main_v77 (F := Ideal) x2) := by
  funext i
  rw [Cert.ReferenceIdeal.Read.val_main_v80_apply]
  have el : ∀ k : Fin 128, Cert.ReferenceIdeal.Read.lidx_main_v80 i k = ix2 (⟨(i 0).val, (i 0).isLt⟩ : Fin 50000) k :=
    fun k => funext fun a => Fin.ext (by match a with | ⟨0, _⟩ => rfl | ⟨1, _⟩ => rfl)
  have er : ∀ k : Fin 128, Cert.ReferenceIdeal.Read.ridx_main_v80 i k = ix2 k (⟨(i 1).val, (i 1).isLt⟩ : Fin 128) :=
    fun k => funext fun a => Fin.ext (by match a with | ⟨0, _⟩ => rfl | ⟨1, _⟩ => rfl)
  unfold prod
  exact Finset.sum_congr rfl fun k _ => by rw [el k, er k]

theorem proj2_eq (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal))
    (hh : V c main_v60 = Cert.ReferenceIdeal.Read.val_main_v75 (F := Ideal) x0 x1 x2 x3 x4 x5 x6 x7)
    (hw : V c main_v62 = Cert.ReferenceIdeal.Read.val_main_v77 (F := Ideal) x2) :
    (dat2 (F := Ideal) V c).arrAt 2 cfg2.N = Cert.ReferenceIdeal.Read.val_main_v80 (F := Ideal) x0 x1 x2 x3 x4 x5 x6 x7 := by
  rw [final2 V c, ref2_eq x0 x1 x2 x3 x4 x5 x6 x7, hh, hw]
/-! ## Region 4 -/

/-- The index maps over the grid: the left factor's row block moves with the output's, its column block and both of the
    right factor's stay at 0, and the output's row block is the point. -/
theorem idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- Every row block is some point's. -/
theorem idx_onto4 : ∀ (q0 : Fin 25), ∃ t : Fin cfg4.N, win4_2.index t = ![q0.val, 0] :=
  (by decide +kernel : ∀ (q0 : Fin 25), ∃ t : Fin grid4.N, win4_2.index t = ![q0.val, 0])

/-- What point `t` writes back is block `t` of the product of the two arrays the region finds. -/
theorem flushed4_eq (V : (c : Dev nD) → (b : Ref sig .tc) → Buf (Elt Ideal) ((c : Thread nD τ).loc b)) (c : Dev nD) (t : Fin cfg4.N) :
    (dat4 (F := Ideal) V c).flushed 2 t
      = ((cfg4.win 2).blk t).view.read (Elt Ideal) (prod (V c main_v92) (V c main_v94)) := by
  show (cfg4.win 2).cut (grid4.coords t) ((dat4 (F := Ideal) V c).after 2 t) = _
  rw [after4_2]
  unfold out4_2
  rw [View.canon_unit_zero zero_off]
  simp only [View.ld_unit_zero (S := S2000x128) zero_off, View.ld_unit_zero (S := S128x128) zero_off]
  obtain ⟨e0, e1, e2, e3, e4, e5⟩ := idx_facts4 t
  funext j
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q)
      = prod (V c main_v92) (V c main_v94) (((cfg4.win 2).blk t).view.emb (ix2 p q))
  refine (pay4_entry _ _ p q).trans ?_
  refine prod_of_factors _ _ _ _ _ (fun k => ?_) (fun k => ?_)
  · show V c main_v92 (((cfg4.win 0).blk t).view.emb (ix2 p k)) = _
    refine congrArg (V c main_v92) (funext fun a => Fin.ext ?_)
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * k.val = k.val; omega
  · show V c main_v94 (((cfg4.win 1).blk t).view.emb (ix2 k q)) = _
    refine congrArg (V c main_v94) (funext fun a => Fin.ext ?_)
    match a with
    | ⟨0, _⟩ => show win4_1.index t (0 : Fin 2) * 128 + 1 * k.val = k.val; omega
    | ⟨1, _⟩ => show win4_1.index t (1 : Fin 2) * 128 + 1 * q.val = win4_2.index t (1 : Fin 2) * 128 + 1 * q.val; omega

/-- An index of the array is in point `t`'s block iff each coordinate is in the block's range on its axis. -/
theorem mem_blk4 (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v95).slice (win4_2.rect t)).set ↔ _
  rw [View.set_slice_whole, Rect.mem_set_unit]
  exact Iff.rfl

/-- Row `r` is in the block of point `r / 2000`. -/
theorem cover4 (i : S50000x128.Idx) :
    ∃ t : Fin cfg4.N, (cfg4.win 2).flush t = true ∧ i ∈ ((cfg4.win 2).blk t).view.set := by
  have hi0 : (i 0).val < 50000 := (i 0).isLt
  have hi1 : (i 1).val < 128 := (i 1).isLt
  obtain ⟨t, ht⟩ := idx_onto4 ⟨(i 0).val / 2000, by omega⟩
  have q0 : win4_2.index t (0 : Fin 2) = (i 0).val / 2000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The output array after the region: the product of the two arrays the region finds. -/
theorem final4 (V : (c : Dev nD) → (b : Ref sig .tc) → Buf (Elt Ideal) ((c : Thread nD τ).loc b)) (c : Dev nD) :
    (dat4 (F := Ideal) V c).arrAt 2 cfg4.N = prod (V c main_v92) (V c main_v94) :=
  (dat4 (F := Ideal) V c).arrAt_eq_of_cover 2 (prod (V c main_v92) (V c main_v94)) (fun t _ => flushed4_eq V c t) cover4

/-- The reference's third projection is that product. -/
theorem ref4_eq (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal)) :
    Cert.ReferenceIdeal.Read.val_main_v130 (F := Ideal) x0 x1 x2 x3 x4 x5 x6 x7
      = prod (Cert.ReferenceIdeal.Read.val_main_v125 (F := Ideal) x0 x1 x2 x3 x4 x5 x6 x7) (Cert.ReferenceIdeal.Read.val_main_v127 (F := Ideal) x2) := by
  funext i
  rw [Cert.ReferenceIdeal.Read.val_main_v130_apply]
  have el : ∀ k : Fin 128, Cert.ReferenceIdeal.Read.lidx_main_v130 i k = ix2 (⟨(i 0).val, (i 0).isLt⟩ : Fin 50000) k :=
    fun k => funext fun a => Fin.ext (by match a with | ⟨0, _⟩ => rfl | ⟨1, _⟩ => rfl)
  have er : ∀ k : Fin 128, Cert.ReferenceIdeal.Read.ridx_main_v130 i k = ix2 k (⟨(i 1).val, (i 1).isLt⟩ : Fin 128) :=
    fun k => funext fun a => Fin.ext (by match a with | ⟨0, _⟩ => rfl | ⟨1, _⟩ => rfl)
  unfold prod
  exact Finset.sum_congr rfl fun k _ => by rw [el k, er k]

theorem proj4_eq (V : (c : Dev nD) → (b : Ref sig .tc) → Buf (Elt Ideal) ((c : Thread nD τ).loc b)) (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal))
    (hh : V c main_v92 = Cert.ReferenceIdeal.Read.val_main_v125 (F := Ideal) x0 x1 x2 x3 x4 x5 x6 x7)
    (hw : V c main_v94 = Cert.ReferenceIdeal.Read.val_main_v127 (F := Ideal) x2) :
    (dat4 (F := Ideal) V c).arrAt 2 cfg4.N = Cert.ReferenceIdeal.Read.val_main_v130 (F := Ideal) x0 x1 x2 x3 x4 x5 x6 x7 := by
  rw [final4 V c, ref4_eq x0 x1 x2 x3 x4 x5 x6 x7, hh, hw]

end Cert.KernelIdeal.ProjRegion

end
-- ==== Proof.CombineRegion.lean ====
import proofs.«104718_j31121333027185_1_alg».proof.Proof.Gen.KernelIdeal.Frame
import proofs.«104718_j31121333027185_1_alg».proof.Proof.Gen.ReferenceIdeal.Read
import Idealize.ShloMosaic.Lib.Pipeline.Value
import Idealize.ShloMosaic.Lib.ValueIdx

/-! # The three combine regions

Each combine region adds, row by row of a [50000,128] array, the aggregated neighbours, the self-loop term and
the bias (and, from the second layer on, the previous layer's output), normalises with the running statistics,
scales, shifts and clamps at zero. Its output array after the run is shown to be the reference's stage, given that
the arrays the region finds are the reference's stages: the body's payload is read at an index, each grid point's
block of 2000 rows is a restriction of one whole-array function, the 25 blocks cover the array, and the
reference's stage read at an index is the same term. -/

noncomputable section

namespace Cert.KernelIdeal.CombineRegion

open Cert.KernelIdeal Cert.KernelIdeal.Gen Idealize.ShloMosaic Idealize.ShloMosaic.TcCoe Idealize.SL.Sem
open Idealize.ShloMosaic.Pipeline (Dat)
open Idealize.ShloMosaic.ValueIdx
open Cert.ReferenceIdeal.Read

/-! ## One element -/

theorem zeroOff : (![0, 0] : Fin 2 → Nat) = fun _ => 0 := funext fun a => by fin_cases a <;> rfl

/-- A [1,128] row broadcast along 2000 rows reads the row's one line at the column. -/
theorem bcastRow_apply {α : Type} (x : S1x128.Idx → α) (h : S1x128.Broadcasts S2000x128) (p : Fin 2000) (q : Fin 128) :
    broadcastTo S2000x128 x h (ix2 p q) = x (ix2 0 q) := by
  refine broadcastTo_apply x h (ix2 p q) (ix2 0 q) (fun a => ?_)
  match a with
  | ⟨0, _⟩ => rfl
  | ⟨1, _⟩ => rfl

/-- Normalise by mean and variance, scale, shift, clamp at zero: the tail every combine shares. -/
def bnRelu (z mu vr g be : EReal) : EReal :=
  max ((z - mu) * Ideal.rsqrt (vr + Ideal.ofBits .f32 0x3727C5AC#32) * g + be) (Ideal.ofBits .f32 0x00000000#32)

/-! ## The first layer's combine (no residual) -/

/-- The first combine's payload at row `p`, column `q` of a block. -/
theorem pay1_apply (a s h : FVec Ideal S2000x128 .f32) (b mu vr g be : FVec Ideal S1x128 .f32) (p : Fin 2000) (q : Fin 128) :
    k1_pay1 (F := Ideal) a s h b mu vr g be (ix2 p q)
      = bnRelu (a (ix2 p q) + s (ix2 p q) * h (ix2 p q) + b (ix2 0 q)) (mu (ix2 0 q)) (vr (ix2 0 q)) (g (ix2 0 q)) (be (ix2 0 q)) := by
  unfold k1_pay1
  simp only [shapeCast_self]
  show max (((a (ix2 p q) + s (ix2 p q) * h (ix2 p q) + broadcastTo S2000x128 b _ (ix2 p q)) - broadcastTo S2000x128 mu _ (ix2 p q))
      * broadcastTo S2000x128 (rsqrt (addf vr (broadcast S1x128 (Scalar.ofBits .f32 0x3727C5AC#32)))) _ (ix2 p q) * broadcastTo S2000x128 g _ (ix2 p q)
      + broadcastTo S2000x128 be _ (ix2 p q)) _ = _
  rw [bcastRow_apply, bcastRow_apply, bcastRow_apply, bcastRow_apply, bcastRow_apply]
  rfl

/-- The first combine on whole arrays: element `i` from the three [50000,128] arrays at `i` and the five rows at `i`'s column. -/
def combine0 (agg sn hp : S50000x128.Idx → EReal) (b mu vr g be : S1x128.Idx → EReal) : S50000x128.Idx → EReal :=
  fun i => bnRelu (agg i + sn i * hp i + b (ix2 0 (i 1))) (mu (ix2 0 (i 1))) (vr (ix2 0 (i 1))) (g (ix2 0 (i 1))) (be (ix2 0 (i 1)))

/-- The payload of blocks that are restrictions of whole arrays is the whole-array function at the block's place. -/
theorem pay1_block (A S H : S50000x128.Idx → EReal) (B MU VR G BE : S1x128.Idx → EReal)
    (a s h : FVec Ideal S2000x128 .f32) (b mu vr g be : FVec Ideal S1x128 .f32)
    (p : Fin 2000) (q : Fin 128) (i : S50000x128.Idx) (hi : (i 1 : Fin 128) = q)
    (ha : a (ix2 p q) = A i) (hs : s (ix2 p q) = S i) (hh : h (ix2 p q) = H i)
    (hb : b (ix2 0 q) = B (ix2 0 q)) (hmu : mu (ix2 0 q) = MU (ix2 0 q)) (hvr : vr (ix2 0 q) = VR (ix2 0 q))
    (hg : g (ix2 0 q) = G (ix2 0 q)) (hbe : be (ix2 0 q) = BE (ix2 0 q)) :
    k1_pay1 (F := Ideal) a s h b mu vr g be (ix2 p q) = combine0 A S H B MU VR G BE i := by
  rw [pay1_apply, ha, hs, hh, hb, hmu, hvr, hg, hbe]
  subst hi
  rfl

/-- The index maps over the grid: the three big inputs move with the output, the rows stay, the output's block is the point. -/
theorem idx_facts1 : ∀ t : Fin cfg1.N,
    win1_0.index t (0 : Fin 2) = win1_8.index t (0 : Fin 2) ∧ win1_0.index t (1 : Fin 2) = win1_8.index t (1 : Fin 2)
    ∧ win1_1.index t (0 : Fin 2) = win1_8.index t (0 : Fin 2) ∧ win1_1.index t (1 : Fin 2) = win1_8.index t (1 : Fin 2)
    ∧ win1_2.index t (0 : Fin 2) = win1_8.index t (0 : Fin 2) ∧ win1_2.index t (1 : Fin 2) = win1_8.index t (1 : Fin 2)
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

set_option maxHeartbeats 1000000 in
/-- What point `t` writes back is block `t` of `combine0` of the arrays the region finds. -/
theorem flushed1_eq (V : (c : Dev nD) → (b : Ref sig .tc) → Buf (Elt Ideal) ((c : Thread nD τ).loc b)) (c : Dev nD) (t : Fin cfg1.N) :
    (dat1 (F := Ideal) V c).flushed 8 t = ((cfg1.win 8).blk t).view.read (Elt Ideal)
      (combine0 (V c main_v44) (V c main_v28) (V c main_v31) (V c main_v55) (V c main_v58) (V c main_v59) (V c main_v56) (V c main_v57)) := by
  show (cfg1.win 8).cut (grid1.coords t) ((dat1 V c).after 8 t) = _
  rw [after1_8]
  unfold out1_8
  rw [View.canon_unit_zero zeroOff]
  simp only [View.ld_unit_zero (S := S2000x128) zeroOff, View.ld_unit_zero (S := S1x128) zeroOff]
  obtain ⟨e00, e01, e10, e11, e20, e21, e30, e31, e40, e41, e50, e51, e60, e61, e70, e71, e80, e81⟩ := idx_facts1 t
  funext j
  obtain ⟨p, q, rfl⟩ : ∃ (p : Fin 2000) (q : Fin 128), j = ix2 p q := ⟨j 0, j 1, eq_ix2 j⟩
  have h0 : ((cfg1.win 0).blk t).view.emb (ix2 p q) = ((cfg1.win 8).blk t).view.emb (ix2 p q) := by
    funext a; apply Fin.ext
    match a with
    | ⟨0, _⟩ => show win1_0.index t (0 : Fin 2) * 2000 + 1 * p.val = win1_8.index t (0 : Fin 2) * 2000 + 1 * p.val; omega
    | ⟨1, _⟩ => show win1_0.index t (1 : Fin 2) * 128 + 1 * q.val = win1_8.index t (1 : Fin 2) * 128 + 1 * q.val; omega
  have h1 : ((cfg1.win 1).blk t).view.emb (ix2 p q) = ((cfg1.win 8).blk t).view.emb (ix2 p q) := by
    funext a; apply Fin.ext
    match a with
    | ⟨0, _⟩ => show win1_1.index t (0 : Fin 2) * 2000 + 1 * p.val = win1_8.index t (0 : Fin 2) * 2000 + 1 * p.val; omega
    | ⟨1, _⟩ => show win1_1.index t (1 : Fin 2) * 128 + 1 * q.val = win1_8.index t (1 : Fin 2) * 128 + 1 * q.val; omega
  have h2 : ((cfg1.win 2).blk t).view.emb (ix2 p q) = ((cfg1.win 8).blk t).view.emb (ix2 p q) := by
    funext a; apply Fin.ext
    match a with
    | ⟨0, _⟩ => show win1_2.index t (0 : Fin 2) * 2000 + 1 * p.val = win1_8.index t (0 : Fin 2) * 2000 + 1 * p.val; omega
    | ⟨1, _⟩ => show win1_2.index t (1 : Fin 2) * 128 + 1 * q.val = win1_8.index t (1 : Fin 2) * 128 + 1 * q.val; omega
  have h3 : ((cfg1.win 3).blk t).view.emb (ix2 0 q) = ix2 0 q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h4 : ((cfg1.win 4).blk t).view.emb (ix2 0 q) = ix2 0 q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have h5 : ((cfg1.win 5).blk t).view.emb (ix2 0 q) = ix2 0 q := by
    funext a; apply Fin.ext
    match a with
    | ⟨0, _⟩ => show win1_5.index t (0 : Fin 2) * 1 + 1 * 0 = 0; omega
    | ⟨1, _⟩ => show win1_5.index t (1 : Fin 2) * 128 + 1 * q.val = q.val; omega
  have h6 : ((cfg1.win 6).blk t).view.emb (ix2 0 q) = ix2 0 q := by
    funext a; apply Fin.ext
    match a with
    | ⟨0, _⟩ => show win1_6.index t (0 : Fin 2) * 1 + 1 * 0 = 0; omega
    | ⟨1, _⟩ => show win1_6.index t (1 : Fin 2) * 128 + 1 * q.val = q.val; omega
  have h7 : ((cfg1.win 7).blk t).view.emb (ix2 0 q) = ix2 0 q := by
    funext a; apply Fin.ext
    match a with
    | ⟨0, _⟩ => show win1_7.index t (0 : Fin 2) * 1 + 1 * 0 = 0; omega
    | ⟨1, _⟩ => show win1_7.index t (1 : Fin 2) * 128 + 1 * q.val = q.val; omega
  show k1_pay1 (F := Ideal) (iblk1 V c 0 t) (iblk1 V c 2 t) (iblk1 V c 1 t) (iblk1 V c 3 t) (iblk1 V c 6 t) (iblk1 V c 7 t) (iblk1 V c 4 t) (iblk1 V c 5 t) (ix2 p q)
    = combine0 (V c main_v44) (V c main_v28) (V c main_v31) (V c main_v55) (V c main_v58) (V c main_v59) (V c main_v56) (V c main_v57) (((cfg1.win 8).blk t).view.emb (ix2 p q))
  refine pay1_block _ _ _ _ _ _ _ _ _ _ _ _ _ _ _ _ p q _ ?_ ?_ ?_ ?_ ?_ ?_ ?_ ?_ ?_
  · exact Fin.ext (show win1_8.index t (1 : Fin 2) * 128 + 1 * q.val = q.val by omega)
  · show V c main_v44 (((cfg1.win 0).blk t).view.emb (ix2 p q)) = V c main_v44 (((cfg1.win 8).blk t).view.emb (ix2 p q)); rw [h0]
  · show V c main_v28 (((cfg1.win 2).blk t).view.emb (ix2 p q)) = V c main_v28 (((cfg1.win 8).blk t).view.emb (ix2 p q)); rw [h2]
  · show V c main_v31 (((cfg1.win 1).blk t).view.emb (ix2 p q)) = V c main_v31 (((cfg1.win 8).blk t).view.emb (ix2 p q)); rw [h1]
  · show V c main_v55 (((cfg1.win 3).blk t).view.emb (ix2 0 q)) = V c main_v55 (ix2 0 q); rw [h3]
  · show V c main_v58 (((cfg1.win 6).blk t).view.emb (ix2 0 q)) = V c main_v58 (ix2 0 q); rw [h6]
  · show V c main_v59 (((cfg1.win 7).blk t).view.emb (ix2 0 q)) = V c main_v59 (ix2 0 q); rw [h7]
  · show V c main_v56 (((cfg1.win 4).blk t).view.emb (ix2 0 q)) = V c main_v56 (ix2 0 q); rw [h4]
  · show V c main_v57 (((cfg1.win 5).blk t).view.emb (ix2 0 q)) = V c main_v57 (ix2 0 q); rw [h5]

/-- An index of the output array is in point `t`'s block iff each coordinate is in the block's range. -/
theorem mem_blk1 (t : Fin cfg1.N) (i : S50000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v60).slice (win1_8.rect t)).set ↔ _
  rw [View.set_slice_whole, Rect.mem_set_unit]
  exact Iff.rfl

/-- Row `r` is in the block of point `r / 2000`: the 25 blocks cover the array. -/
theorem cover1 (i : S50000x128.Idx) : ∃ t : Fin cfg1.N, (cfg1.win 8).flush t = true ∧ i ∈ ((cfg1.win 8).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, -, -, -, -, -, -, -, -, e80, e81⟩ := idx_facts1 t
  refine ⟨t, flush1_8 t, ?_⟩
  rw [mem_blk1]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- The output array after the run is `combine0` of the arrays the region finds. -/
theorem final1 (V : (c : Dev nD) → (b : Ref sig .tc) → Buf (Elt Ideal) ((c : Thread nD τ).loc b)) (c : Dev nD) :
    (dat1 (F := Ideal) V c).arrAt 8 cfg1.N
      = combine0 (V c main_v44) (V c main_v28) (V c main_v31) (V c main_v55) (V c main_v58) (V c main_v59) (V c main_v56) (V c main_v57) :=
  (dat1 (F := Ideal) V c).arrAt_eq_of_cover 8 _ (fun t _ => flushed1_eq V c t) cover1

/-- The congruence every comparison of two combines goes through: the big arrays agree at `i`, the rows at `i`'s column. -/
theorem combine0_ext {A A' S S' H H' : S50000x128.Idx → EReal} {B B' MU MU' VR VR' G G' BE BE' : S1x128.Idx → EReal} (i : S50000x128.Idx)
    (hA : A i = A' i) (hS : S i = S' i) (hH : H i = H' i) (hB : B (ix2 0 (i 1)) = B' (ix2 0 (i 1))) (hMU : MU (ix2 0 (i 1)) = MU' (ix2 0 (i 1)))
    (hVR : VR (ix2 0 (i 1)) = VR' (ix2 0 (i 1))) (hG : G (ix2 0 (i 1)) = G' (ix2 0 (i 1))) (hBE : BE (ix2 0 (i 1)) = BE' (ix2 0 (i 1))) :
    combine0 A S H B MU VR G BE i = combine0 A' S' H' B' MU' VR' G' BE' i := by
  unfold combine0
  rw [hA, hS, hH, hB, hMU, hVR, hG, hBE]

/-- The reference's first activation at an index: the same term, its [128] parameter vectors read at the column. -/
theorem ref75_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal)) (i : S50000x128.Idx) :
    val_main_v75 (F := Ideal) x0 x1 x2 x3 x4 x5 x6 x7 i
      = combine0 (val_main_v44 (F := Ideal) x0 x1 x2) (val_main_v46 (F := Ideal) x1) (val_main_v31 (F := Ideal) x0 x2)
          (fun r => val_main_v30 (F := Ideal) x3 (ix1 (r 1))) (fun r => val_main_v53 (F := Ideal) x6 (ix1 (r 1)))
          (fun r => val_main_v58 (F := Ideal) x7 (ix1 (r 1))) (fun r => val_main_v66 (F := Ideal) x4 (ix1 (r 1)))
          (fun r => val_main_v71 (F := Ideal) x5 (ix1 (r 1))) i := by
  have e50 : idx_main_v49 (idx_main_v50 i) = ix1 (i 1) := funext fun a => match a with | ⟨0, _⟩ => rfl
  have e55 : idx_main_v54 (idx_main_v55 i) = ix1 (i 1) := funext fun a => match a with | ⟨0, _⟩ => rfl
  have e63 : idx_main_v62 (idx_main_v63 i) = ix1 (i 1) := funext fun a => match a with | ⟨0, _⟩ => rfl
  have e68 : idx_main_v67 (idx_main_v68 i) = ix1 (i 1) := funext fun a => match a with | ⟨0, _⟩ => rfl
  have e73 : idx_main_v72 (idx_main_v73 i) = ix1 (i 1) := funext fun a => match a with | ⟨0, _⟩ => rfl
  rw [val_main_v75_apply, val_main_v74_apply, val_main_v73_apply, val_main_v72_apply, val_main_v69_apply, val_main_v68_apply,
    val_main_v67_apply, val_main_v64_apply, val_main_v63_apply, val_main_v62_apply, val_main_v61_apply, val_main_v60_apply,
    val_main_v59_apply, val_main_cst_8_apply, val_main_v56_apply, val_main_v55_apply, val_main_v54_apply, val_main_v51_apply,
    val_main_v50_apply, val_main_v49_apply, val_main_v48_apply, val_main_v47_apply, val_main_call0_v0_apply, val_main_call0_cst_apply,
    e50, e55, e63, e68, e73]
  generalize val_main_v44 (F := Ideal) x0 x1 x2 = A
  generalize val_main_v46 (F := Ideal) x1 = S
  generalize val_main_v31 (F := Ideal) x0 x2 = H
  generalize val_main_v30 (F := Ideal) x3 = B
  generalize val_main_v53 (F := Ideal) x6 = MU
  generalize val_main_v58 (F := Ideal) x7 = VR
  generalize val_main_v66 (F := Ideal) x4 = G
  generalize val_main_v71 (F := Ideal) x5 = BE
  rfl

/-- REGION 1: if the arrays the region finds are the reference's stages, its output array after the run is the
    reference's first activation. -/
theorem comb1_eq (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal))
    (hagg : V c main_v44 = val_main_v44 (F := Ideal) x0 x1 x2) (hproj : V c main_v31 = val_main_v31 (F := Ideal) x0 x2)
    (hsn : V c main_v28 = val_main_v46 (F := Ideal) x1)
    (hb : ∀ j : Fin 128, (V c main_v55 : S1x128.Idx → EReal) (ix2 0 j) = (val_main_v30 (F := Ideal) x3 : S128.Idx → EReal) (ix1 j))
    (hg : ∀ j : Fin 128, (V c main_v56 : S1x128.Idx → EReal) (ix2 0 j) = (val_main_v66 (F := Ideal) x4 : S128.Idx → EReal) (ix1 j))
    (hbe : ∀ j : Fin 128, (V c main_v57 : S1x128.Idx → EReal) (ix2 0 j) = (val_main_v71 (F := Ideal) x5 : S128.Idx → EReal) (ix1 j))
    (hm : ∀ j : Fin 128, (V c main_v58 : S1x128.Idx → EReal) (ix2 0 j) = (val_main_v53 (F := Ideal) x6 : S128.Idx → EReal) (ix1 j))
    (hv : ∀ j : Fin 128, (V c main_v59 : S1x128.Idx → EReal) (ix2 0 j) = (val_main_v58 (F := Ideal) x7 : S128.Idx → EReal) (ix1 j)) :
    (dat1 (F := Ideal) V c).arrAt 8 cfg1.N = val_main_v75 (F := Ideal) x0 x1 x2 x3 x4 x5 x6 x7 := by
  rw [final1 V c]
  funext i
  rw [ref75_apply]
  exact combine0_ext i (congrFun hagg i) (congrFun hsn i) (congrFun hproj i) (hb (i 1)) (hm (i 1)) (hv (i 1)) (hg (i 1)) (hbe (i 1))

/-! ## The later layers' combine (with the residual) -/

/-- The residual combine on whole arrays: the previous layer's output is added to the aggregate before the normalisation. -/
def combineRes (agg sn hp hprev : S50000x128.Idx → EReal) (b mu vr g be : S1x128.Idx → EReal) : S50000x128.Idx → EReal :=
  fun i => bnRelu (hprev i + (agg i + sn i * hp i + b (ix2 0 (i 1)))) (mu (ix2 0 (i 1))) (vr (ix2 0 (i 1))) (g (ix2 0 (i 1))) (be (ix2 0 (i 1)))

/-- Two residual combines agree at `i` when the big arrays agree at `i` and the rows at `i`'s column. -/
theorem combineRes_ext {A A' S S' H H' P P' : S50000x128.Idx → EReal} {B B' MU MU' VR VR' G G' BE BE' : S1x128.Idx → EReal} (i : S50000x128.Idx)
    (hA : A i = A' i) (hS : S i = S' i) (hH : H i = H' i) (hP : P i = P' i) (hB : B (ix2 0 (i 1)) = B' (ix2 0 (i 1))) (hMU : MU (ix2 0 (i 1)) = MU' (ix2 0 (i 1)))
    (hVR : VR (ix2 0 (i 1)) = VR' (ix2 0 (i 1))) (hG : G (ix2 0 (i 1)) = G' (ix2 0 (i 1))) (hBE : BE (ix2 0 (i 1)) = BE' (ix2 0 (i 1))) :
    combineRes A S H P B MU VR G BE i = combineRes A' S' H' P' B' MU' VR' G' BE' i := by
  unfold combineRes
  rw [hA, hS, hH, hP, hB, hMU, hVR, hG, hBE]

/-! ## Region 3: a combine with the residual -/

/-- The residual combine's payload at row `p`, column `q` of a block. -/
theorem pay3_apply (a s h : FVec Ideal S2000x128 .f32) (b : FVec Ideal S1x128 .f32) (hprev : FVec Ideal S2000x128 .f32) (mu vr g be : FVec Ideal S1x128 .f32)
    (p : Fin 2000) (q : Fin 128) :
    k3_pay1 (F := Ideal) a s h b hprev mu vr g be (ix2 p q)
      = bnRelu (hprev (ix2 p q) + (a (ix2 p q) + s (ix2 p q) * h (ix2 p q) + b (ix2 0 q))) (mu (ix2 0 q)) (vr (ix2 0 q)) (g (ix2 0 q)) (be (ix2 0 q)) := by
  unfold k3_pay1
  simp only [shapeCast_self]
  show max (((hprev (ix2 p q) + (a (ix2 p q) + s (ix2 p q) * h (ix2 p q) + broadcastTo S2000x128 b _ (ix2 p q))) - broadcastTo S2000x128 mu _ (ix2 p q))
      * broadcastTo S2000x128 (rsqrt (addf vr (broadcast S1x128 (Scalar.ofBits .f32 0x3727C5AC#32)))) _ (ix2 p q) * broadcastTo S2000x128 g _ (ix2 p q)
      + broadcastTo S2000x128 be _ (ix2 p q)) _ = _
  rw [bcastRow_apply, bcastRow_apply, bcastRow_apply, bcastRow_apply, bcastRow_apply]
  rfl

/-- The payload of blocks that are restrictions of whole arrays is `combineRes` at the block's place. -/
theorem pay3_block (A S H P : S50000x128.Idx → EReal) (B MU VR G BE : S1x128.Idx → EReal)
    (a s h : FVec Ideal S2000x128 .f32) (b : FVec Ideal S1x128 .f32) (hprev : FVec Ideal S2000x128 .f32) (mu vr g be : FVec Ideal S1x128 .f32)
    (p : Fin 2000) (q : Fin 128) (i : S50000x128.Idx) (hi : (i 1 : Fin 128) = q)
    (ha : a (ix2 p q) = A i) (hs : s (ix2 p q) = S i) (hh : h (ix2 p q) = H i) (hp : hprev (ix2 p q) = P i)
    (hb : b (ix2 0 q) = B (ix2 0 q)) (hmu : mu (ix2 0 q) = MU (ix2 0 q)) (hvr : vr (ix2 0 q) = VR (ix2 0 q))
    (hg : g (ix2 0 q) = G (ix2 0 q)) (hbe : be (ix2 0 q) = BE (ix2 0 q)) :
    k3_pay1 (F := Ideal) a s h b hprev mu vr g be (ix2 p q) = combineRes A S H P B MU VR G BE i := by
  rw [pay3_apply, ha, hs, hh, hp, hb, hmu, hvr, hg, hbe]
  subst hi
  rfl

/-- The index maps over the grid: the four big inputs move with the output, the rows stay, the output's block is the point. -/
theorem idx_facts3 : ∀ t : Fin cfg3.N,
    win3_0.index t (0 : Fin 2) = win3_9.index t (0 : Fin 2) ∧ win3_0.index t (1 : Fin 2) = win3_9.index t (1 : Fin 2)
    ∧ win3_1.index t (0 : Fin 2) = win3_9.index t (0 : Fin 2) ∧ win3_1.index t (1 : Fin 2) = win3_9.index t (1 : Fin 2)
    ∧ win3_2.index t (0 : Fin 2) = win3_9.index t (0 : Fin 2) ∧ win3_2.index t (1 : Fin 2) = win3_9.index t (1 : Fin 2)
    ∧ win3_3.index t (0 : Fin 2) = win3_9.index t (0 : Fin 2) ∧ win3_3.index t (1 : Fin 2) = win3_9.index t (1 : Fin 2)
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = 0 ∧ win3_7.index t (1 : Fin 2) = 0
    ∧ win3_8.index t (0 : Fin 2) = 0 ∧ win3_8.index t (1 : Fin 2) = 0
    ∧ win3_9.index t (0 : Fin 2) = t.val ∧ win3_9.index t (1 : Fin 2) = 0 :=
  (by decide +kernel : ∀ t : Fin grid3.N, _)

set_option maxHeartbeats 1000000 in
/-- What point `t` writes back is block `t` of `combineRes` of the arrays the region finds. -/
theorem flushed3_eq (V : (c : Dev nD) → (b : Ref sig .tc) → Buf (Elt Ideal) ((c : Thread nD τ).loc b)) (c : Dev nD) (t : Fin cfg3.N) :
    (dat3 (F := Ideal) V c).flushed 9 t = ((cfg3.win 9).blk t).view.read (Elt Ideal)
      (combineRes (V c main_v76) (V c main_v28) (V c main_v63) (V c main_v60) (V c main_v87) (V c main_v90) (V c main_v91) (V c main_v88) (V c main_v89)) := by
  show (cfg3.win 9).cut (grid3.coords t) ((dat3 V c).after 9 t) = _
  rw [after3_9]
  unfold out3_9
  rw [View.canon_unit_zero zeroOff]
  simp only [View.ld_unit_zero (S := S2000x128) zeroOff, View.ld_unit_zero (S := S1x128) zeroOff]
  obtain ⟨e00, e01, e10, e11, e20, e21, e30, e31, e40, e41, e50, e51, e60, e61, e70, e71, e80, e81, e90, e91⟩ := idx_facts3 t
  funext j
  obtain ⟨p, q, rfl⟩ : ∃ (p : Fin 2000) (q : Fin 128), j = ix2 p q := ⟨j 0, j 1, eq_ix2 j⟩
  have h0 : ((cfg3.win 0).blk t).view.emb (ix2 p q) = ((cfg3.win 9).blk t).view.emb (ix2 p q) := by
    funext a; apply Fin.ext
    match a with
    | ⟨0, _⟩ => show win3_0.index t (0 : Fin 2) * 2000 + 1 * p.val = win3_9.index t (0 : Fin 2) * 2000 + 1 * p.val; omega
    | ⟨1, _⟩ => show win3_0.index t (1 : Fin 2) * 128 + 1 * q.val = win3_9.index t (1 : Fin 2) * 128 + 1 * q.val; omega
  have h1 : ((cfg3.win 1).blk t).view.emb (ix2 p q) = ((cfg3.win 9).blk t).view.emb (ix2 p q) := by
    funext a; apply Fin.ext
    match a with
    | ⟨0, _⟩ => show win3_1.index t (0 : Fin 2) * 2000 + 1 * p.val = win3_9.index t (0 : Fin 2) * 2000 + 1 * p.val; omega
    | ⟨1, _⟩ => show win3_1.index t (1 : Fin 2) * 128 + 1 * q.val = win3_9.index t (1 : Fin 2) * 128 + 1 * q.val; omega
  have h2 : ((cfg3.win 2).blk t).view.emb (ix2 p q) = ((cfg3.win 9).blk t).view.emb (ix2 p q) := by
    funext a; apply Fin.ext
    match a with
    | ⟨0, _⟩ => show win3_2.index t (0 : Fin 2) * 2000 + 1 * p.val = win3_9.index t (0 : Fin 2) * 2000 + 1 * p.val; omega
    | ⟨1, _⟩ => show win3_2.index t (1 : Fin 2) * 128 + 1 * q.val = win3_9.index t (1 : Fin 2) * 128 + 1 * q.val; omega
  have h3 : ((cfg3.win 3).blk t).view.emb (ix2 p q) = ((cfg3.win 9).blk t).view.emb (ix2 p q) := by
    funext a; apply Fin.ext
    match a with
    | ⟨0, _⟩ => show win3_3.index t (0 : Fin 2) * 2000 + 1 * p.val = win3_9.index t (0 : Fin 2) * 2000 + 1 * p.val; omega
    | ⟨1, _⟩ => show win3_3.index t (1 : Fin 2) * 128 + 1 * q.val = win3_9.index t (1 : Fin 2) * 128 + 1 * q.val; omega
  have h4 : ((cfg3.win 4).blk t).view.emb (ix2 0 q) = ix2 0 q := by
    funext a; apply Fin.ext
    match a with
    | ⟨0, _⟩ => show win3_4.index t (0 : Fin 2) * 1 + 1 * 0 = 0; omega
    | ⟨1, _⟩ => show win3_4.index t (1 : Fin 2) * 128 + 1 * q.val = q.val; omega
  have h5 : ((cfg3.win 5).blk t).view.emb (ix2 0 q) = ix2 0 q := by
    funext a; apply Fin.ext
    match a with
    | ⟨0, _⟩ => show win3_5.index t (0 : Fin 2) * 1 + 1 * 0 = 0; omega
    | ⟨1, _⟩ => show win3_5.index t (1 : Fin 2) * 128 + 1 * q.val = q.val; omega
  have h6 : ((cfg3.win 6).blk t).view.emb (ix2 0 q) = ix2 0 q := by
    funext a; apply Fin.ext
    match a with
    | ⟨0, _⟩ => show win3_6.index t (0 : Fin 2) * 1 + 1 * 0 = 0; omega
    | ⟨1, _⟩ => show win3_6.index t (1 : Fin 2) * 128 + 1 * q.val = q.val; omega
  have h7 : ((cfg3.win 7).blk t).view.emb (ix2 0 q) = ix2 0 q := by
    funext a; apply Fin.ext
    match a with
    | ⟨0, _⟩ => show win3_7.index t (0 : Fin 2) * 1 + 1 * 0 = 0; omega
    | ⟨1, _⟩ => show win3_7.index t (1 : Fin 2) * 128 + 1 * q.val = q.val; omega
  have h8 : ((cfg3.win 8).blk t).view.emb (ix2 0 q) = ix2 0 q := by
    funext a; apply Fin.ext
    match a with
    | ⟨0, _⟩ => show win3_8.index t (0 : Fin 2) * 1 + 1 * 0 = 0; omega
    | ⟨1, _⟩ => show win3_8.index t (1 : Fin 2) * 128 + 1 * q.val = q.val; omega
  show k3_pay1 (F := Ideal) (iblk3 V c 0 t) (iblk3 V c 3 t) (iblk3 V c 1 t) (iblk3 V c 4 t) (iblk3 V c 2 t) (iblk3 V c 7 t) (iblk3 V c 8 t) (iblk3 V c 5 t) (iblk3 V c 6 t) (ix2 p q)
    = combineRes (V c main_v76) (V c main_v28) (V c main_v63) (V c main_v60) (V c main_v87) (V c main_v90) (V c main_v91) (V c main_v88) (V c main_v89) (((cfg3.win 9).blk t).view.emb (ix2 p q))
  refine pay3_block _ _ _ _ _ _ _ _ _ _ _ _ _ _ _ _ _ _ p q _ ?_ ?_ ?_ ?_ ?_ ?_ ?_ ?_ ?_ ?_
  · exact Fin.ext (show win3_9.index t (1 : Fin 2) * 128 + 1 * q.val = q.val by omega)
  · show V c main_v76 (((cfg3.win 0).blk t).view.emb (ix2 p q)) = V c main_v76 (((cfg3.win 9).blk t).view.emb (ix2 p q)); rw [h0]
  · show V c main_v28 (((cfg3.win 3).blk t).view.emb (ix2 p q)) = V c main_v28 (((cfg3.win 9).blk t).view.emb (ix2 p q)); rw [h3]
  · show V c main_v63 (((cfg3.win 1).blk t).view.emb (ix2 p q)) = V c main_v63 (((cfg3.win 9).blk t).view.emb (ix2 p q)); rw [h1]
  · show V c main_v60 (((cfg3.win 2).blk t).view.emb (ix2 p q)) = V c main_v60 (((cfg3.win 9).blk t).view.emb (ix2 p q)); rw [h2]
  · show V c main_v87 (((cfg3.win 4).blk t).view.emb (ix2 0 q)) = V c main_v87 (ix2 0 q); rw [h4]
  · show V c main_v90 (((cfg3.win 7).blk t).view.emb (ix2 0 q)) = V c main_v90 (ix2 0 q); rw [h7]
  · show V c main_v91 (((cfg3.win 8).blk t).view.emb (ix2 0 q)) = V c main_v91 (ix2 0 q); rw [h8]
  · show V c main_v88 (((cfg3.win 5).blk t).view.emb (ix2 0 q)) = V c main_v88 (ix2 0 q); rw [h5]
  · show V c main_v89 (((cfg3.win 6).blk t).view.emb (ix2 0 q)) = V c main_v89 (ix2 0 q); rw [h6]

/-- An index of the output array is in point `t`'s block iff each coordinate is in the block's range. -/
theorem mem_blk3 (t : Fin cfg3.N) (i : S50000x128.Idx) :
    i ∈ ((cfg3.win 9).blk t).view.set ↔ ∀ a : Fin 2, win3_9.index t a * S2000x128.size a ≤ (i a).val ∧ (i a).val < win3_9.index t a * S2000x128.size a + S2000x128.size a := by
  show i ∈ ((View.whole main_v92).slice (win3_9.rect t)).set ↔ _
  rw [View.set_slice_whole, Rect.mem_set_unit]
  exact Iff.rfl

/-- Row `r` is in the block of point `r / 2000`: the 25 blocks cover the array. -/
theorem cover3 (i : S50000x128.Idx) : ∃ t : Fin cfg3.N, (cfg3.win 9).flush t = true ∧ i ∈ ((cfg3.win 9).blk t).view.set := by
  have hi0 : (i 0).val < 50000 := (i 0).isLt
  have hi1 : (i 1).val < 128 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, -, -, -, -, -, -, -, -, -, -, e90, e91⟩ := idx_facts3 t
  refine ⟨t, flush3_9 t, ?_⟩
  rw [mem_blk3]
  intro a
  match a with
  | ⟨0, _⟩ => show win3_9.index t (0 : Fin 2) * 2000 ≤ (i 0).val ∧ (i 0).val < win3_9.index t (0 : Fin 2) * 2000 + 2000; omega
  | ⟨1, _⟩ => show win3_9.index t (1 : Fin 2) * 128 ≤ (i 1).val ∧ (i 1).val < win3_9.index t (1 : Fin 2) * 128 + 128; omega

/-- The output array after the run is `combineRes` of the arrays the region finds. -/
theorem final3 (V : (c : Dev nD) → (b : Ref sig .tc) → Buf (Elt Ideal) ((c : Thread nD τ).loc b)) (c : Dev nD) :
    (dat3 (F := Ideal) V c).arrAt 9 cfg3.N = combineRes (V c main_v76) (V c main_v28) (V c main_v63) (V c main_v60) (V c main_v87) (V c main_v90) (V c main_v91) (V c main_v88) (V c main_v89) :=
  (dat3 (F := Ideal) V c).arrAt_eq_of_cover 9 _ (fun t _ => flushed3_eq V c t) cover3

/-- The reference's activation of this layer at an index: the same term, its [128] parameter vectors read at the column. -/
theorem ref125_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal)) (i : S50000x128.Idx) :
    val_main_v125 (F := Ideal) x0 x1 x2 x3 x4 x5 x6 x7 i
      = combineRes (val_main_v93 (F := Ideal) x0 x1 x2 x3 x4 x5 x6 x7) (val_main_v95 (F := Ideal) x1) (val_main_v80 (F := Ideal) x0 x1 x2 x3 x4 x5 x6 x7)
          (val_main_v75 (F := Ideal) x0 x1 x2 x3 x4 x5 x6 x7)
          (fun r => val_main_v79 (F := Ideal) x3 (ix1 (r 1))) (fun r => val_main_v103 (F := Ideal) x6 (ix1 (r 1)))
          (fun r => val_main_v108 (F := Ideal) x7 (ix1 (r 1))) (fun r => val_main_v116 (F := Ideal) x4 (ix1 (r 1)))
          (fun r => val_main_v121 (F := Ideal) x5 (ix1 (r 1))) i := by
  have e99 : idx_main_v98 (idx_main_v99 i) = ix1 (i 1) := funext fun a => match a with | ⟨0, _⟩ => rfl
  have e105 : idx_main_v104 (idx_main_v105 i) = ix1 (i 1) := funext fun a => match a with | ⟨0, _⟩ => rfl
  have e113 : idx_main_v112 (idx_main_v113 i) = ix1 (i 1) := funext fun a => match a with | ⟨0, _⟩ => rfl
  have e118 : idx_main_v117 (idx_main_v118 i) = ix1 (i 1) := funext fun a => match a with | ⟨0, _⟩ => rfl
  have e123 : idx_main_v122 (idx_main_v123 i) = ix1 (i 1) := funext fun a => match a with | ⟨0, _⟩ => rfl
  rw [val_main_v125_apply, val_main_v124_apply, val_main_v123_apply, val_main_v122_apply, val_main_v119_apply, val_main_v118_apply,
    val_main_v117_apply, val_main_v114_apply, val_main_v113_apply, val_main_v112_apply, val_main_v111_apply, val_main_v110_apply,
    val_main_v109_apply, val_main_cst_12_apply, val_main_v106_apply, val_main_v105_apply, val_main_v104_apply, val_main_v101_apply, val_main_v100_apply,
    val_main_v99_apply, val_main_v98_apply, val_main_v97_apply, val_main_v96_apply, val_main_call1_v0_apply, val_main_call1_cst_apply,
    e99, e105, e113, e118, e123]
  generalize val_main_v93 (F := Ideal) x0 x1 x2 x3 x4 x5 x6 x7 = A
  generalize val_main_v95 (F := Ideal) x1 = S
  generalize val_main_v80 (F := Ideal) x0 x1 x2 x3 x4 x5 x6 x7 = H
  generalize val_main_v75 (F := Ideal) x0 x1 x2 x3 x4 x5 x6 x7 = P
  generalize val_main_v79 (F := Ideal) x3 = B
  generalize val_main_v103 (F := Ideal) x6 = MU
  generalize val_main_v108 (F := Ideal) x7 = VR
  generalize val_main_v116 (F := Ideal) x4 = G
  generalize val_main_v121 (F := Ideal) x5 = BE
  rfl

/-- REGION 3: if the arrays the region finds are the reference's stages, its output array after the run is the
    reference's activation of this layer. -/
theorem comb3_eq (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal))
    (hagg : V c main_v76 = val_main_v93 (F := Ideal) x0 x1 x2 x3 x4 x5 x6 x7) (hproj : V c main_v63 = val_main_v80 (F := Ideal) x0 x1 x2 x3 x4 x5 x6 x7)
    (hprev : V c main_v60 = val_main_v75 (F := Ideal) x0 x1 x2 x3 x4 x5 x6 x7) (hsn : V c main_v28 = val_main_v95 (F := Ideal) x1)
    (hb : ∀ j : Fin 128, (V c main_v87 : S1x128.Idx → EReal) (ix2 0 j) = (val_main_v79 (F := Ideal) x3 : S128.Idx → EReal) (ix1 j))
    (hg : ∀ j : Fin 128, (V c main_v88 : S1x128.Idx → EReal) (ix2 0 j) = (val_main_v116 (F := Ideal) x4 : S128.Idx → EReal) (ix1 j))
    (hbe : ∀ j : Fin 128, (V c main_v89 : S1x128.Idx → EReal) (ix2 0 j) = (val_main_v121 (F := Ideal) x5 : S128.Idx → EReal) (ix1 j))
    (hm : ∀ j : Fin 128, (V c main_v90 : S1x128.Idx → EReal) (ix2 0 j) = (val_main_v103 (F := Ideal) x6 : S128.Idx → EReal) (ix1 j))
    (hv : ∀ j : Fin 128, (V c main_v91 : S1x128.Idx → EReal) (ix2 0 j) = (val_main_v108 (F := Ideal) x7 : S128.Idx → EReal) (ix1 j)) :
    (dat3 (F := Ideal) V c).arrAt 9 cfg3.N = val_main_v125 (F := Ideal) x0 x1 x2 x3 x4 x5 x6 x7 := by
  rw [final3 V c]
  funext i
  rw [ref125_apply]
  exact combineRes_ext i (congrFun hagg i) (congrFun hsn i) (congrFun hproj i) (congrFun hprev i) (hb (i 1)) (hm (i 1)) (hv (i 1)) (hg (i 1)) (hbe (i 1))

/-! ## Region 5: a combine with the residual -/

/-- The residual combine's payload at row `p`, column `q` of a block. -/
theorem pay5_apply (a s h : FVec Ideal S2000x128 .f32) (b : FVec Ideal S1x128 .f32) (hprev : FVec Ideal S2000x128 .f32) (mu vr g be : FVec Ideal S1x128 .f32)
    (p : Fin 2000) (q : Fin 128) :
    k5_pay1 (F := Ideal) a s h b hprev mu vr g be (ix2 p q)
      = bnRelu (hprev (ix2 p q) + (a (ix2 p q) + s (ix2 p q) * h (ix2 p q) + b (ix2 0 q))) (mu (ix2 0 q)) (vr (ix2 0 q)) (g (ix2 0 q)) (be (ix2 0 q)) := by
  unfold k5_pay1
  simp only [shapeCast_self]
  show max (((hprev (ix2 p q) + (a (ix2 p q) + s (ix2 p q) * h (ix2 p q) + broadcastTo S2000x128 b _ (ix2 p q))) - broadcastTo S2000x128 mu _ (ix2 p q))
      * broadcastTo S2000x128 (rsqrt (addf vr (broadcast S1x128 (Scalar.ofBits .f32 0x3727C5AC#32)))) _ (ix2 p q) * broadcastTo S2000x128 g _ (ix2 p q)
      + broadcastTo S2000x128 be _ (ix2 p q)) _ = _
  rw [bcastRow_apply, bcastRow_apply, bcastRow_apply, bcastRow_apply, bcastRow_apply]
  rfl

/-- The payload of blocks that are restrictions of whole arrays is `combineRes` at the block's place. -/
theorem pay5_block (A S H P : S50000x128.Idx → EReal) (B MU VR G BE : S1x128.Idx → EReal)
    (a s h : FVec Ideal S2000x128 .f32) (b : FVec Ideal S1x128 .f32) (hprev : FVec Ideal S2000x128 .f32) (mu vr g be : FVec Ideal S1x128 .f32)
    (p : Fin 2000) (q : Fin 128) (i : S50000x128.Idx) (hi : (i 1 : Fin 128) = q)
    (ha : a (ix2 p q) = A i) (hs : s (ix2 p q) = S i) (hh : h (ix2 p q) = H i) (hp : hprev (ix2 p q) = P i)
    (hb : b (ix2 0 q) = B (ix2 0 q)) (hmu : mu (ix2 0 q) = MU (ix2 0 q)) (hvr : vr (ix2 0 q) = VR (ix2 0 q))
    (hg : g (ix2 0 q) = G (ix2 0 q)) (hbe : be (ix2 0 q) = BE (ix2 0 q)) :
    k5_pay1 (F := Ideal) a s h b hprev mu vr g be (ix2 p q) = combineRes A S H P B MU VR G BE i := by
  rw [pay5_apply, ha, hs, hh, hp, hb, hmu, hvr, hg, hbe]
  subst hi
  rfl

/-- The index maps over the grid: the four big inputs move with the output, the rows stay, the output's block is the point. -/
theorem idx_facts5 : ∀ t : Fin cfg5.N,
    win5_0.index t (0 : Fin 2) = win5_9.index t (0 : Fin 2) ∧ win5_0.index t (1 : Fin 2) = win5_9.index t (1 : Fin 2)
    ∧ win5_1.index t (0 : Fin 2) = win5_9.index t (0 : Fin 2) ∧ win5_1.index t (1 : Fin 2) = win5_9.index t (1 : Fin 2)
    ∧ win5_2.index t (0 : Fin 2) = win5_9.index t (0 : Fin 2) ∧ win5_2.index t (1 : Fin 2) = win5_9.index t (1 : Fin 2)
    ∧ win5_3.index t (0 : Fin 2) = win5_9.index t (0 : Fin 2) ∧ win5_3.index t (1 : Fin 2) = win5_9.index t (1 : Fin 2)
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = 0 ∧ win5_7.index t (1 : Fin 2) = 0
    ∧ win5_8.index t (0 : Fin 2) = 0 ∧ win5_8.index t (1 : Fin 2) = 0
    ∧ win5_9.index t (0 : Fin 2) = t.val ∧ win5_9.index t (1 : Fin 2) = 0 :=
  (by decide +kernel : ∀ t : Fin grid5.N, _)

set_option maxHeartbeats 1000000 in
/-- What point `t` writes back is block `t` of `combineRes` of the arrays the region finds. -/
theorem flushed5_eq (V : (c : Dev nD) → (b : Ref sig .tc) → Buf (Elt Ideal) ((c : Thread nD τ).loc b)) (c : Dev nD) (t : Fin cfg5.N) :
    (dat5 (F := Ideal) V c).flushed 9 t = ((cfg5.win 9).blk t).view.read (Elt Ideal)
      (combineRes (V c main_v108) (V c main_v28) (V c main_v95) (V c main_v92) (V c main_v119) (V c main_v122) (V c main_v123) (V c main_v120) (V c main_v121)) := by
  show (cfg5.win 9).cut (grid5.coords t) ((dat5 V c).after 9 t) = _
  rw [after5_9]
  unfold out5_9
  rw [View.canon_unit_zero zeroOff]
  simp only [View.ld_unit_zero (S := S2000x128) zeroOff, View.ld_unit_zero (S := S1x128) zeroOff]
  obtain ⟨e00, e01, e10, e11, e20, e21, e30, e31, e40, e41, e50, e51, e60, e61, e70, e71, e80, e81, e90, e91⟩ := idx_facts5 t
  funext j
  obtain ⟨p, q, rfl⟩ : ∃ (p : Fin 2000) (q : Fin 128), j = ix2 p q := ⟨j 0, j 1, eq_ix2 j⟩
  have h0 : ((cfg5.win 0).blk t).view.emb (ix2 p q) = ((cfg5.win 9).blk t).view.emb (ix2 p q) := by
    funext a; apply Fin.ext
    match a with
    | ⟨0, _⟩ => show win5_0.index t (0 : Fin 2) * 2000 + 1 * p.val = win5_9.index t (0 : Fin 2) * 2000 + 1 * p.val; omega
    | ⟨1, _⟩ => show win5_0.index t (1 : Fin 2) * 128 + 1 * q.val = win5_9.index t (1 : Fin 2) * 128 + 1 * q.val; omega
  have h1 : ((cfg5.win 1).blk t).view.emb (ix2 p q) = ((cfg5.win 9).blk t).view.emb (ix2 p q) := by
    funext a; apply Fin.ext
    match a with
    | ⟨0, _⟩ => show win5_1.index t (0 : Fin 2) * 2000 + 1 * p.val = win5_9.index t (0 : Fin 2) * 2000 + 1 * p.val; omega
    | ⟨1, _⟩ => show win5_1.index t (1 : Fin 2) * 128 + 1 * q.val = win5_9.index t (1 : Fin 2) * 128 + 1 * q.val; omega
  have h2 : ((cfg5.win 2).blk t).view.emb (ix2 p q) = ((cfg5.win 9).blk t).view.emb (ix2 p q) := by
    funext a; apply Fin.ext
    match a with
    | ⟨0, _⟩ => show win5_2.index t (0 : Fin 2) * 2000 + 1 * p.val = win5_9.index t (0 : Fin 2) * 2000 + 1 * p.val; omega
    | ⟨1, _⟩ => show win5_2.index t (1 : Fin 2) * 128 + 1 * q.val = win5_9.index t (1 : Fin 2) * 128 + 1 * q.val; omega
  have h3 : ((cfg5.win 3).blk t).view.emb (ix2 p q) = ((cfg5.win 9).blk t).view.emb (ix2 p q) := by
    funext a; apply Fin.ext
    match a with
    | ⟨0, _⟩ => show win5_3.index t (0 : Fin 2) * 2000 + 1 * p.val = win5_9.index t (0 : Fin 2) * 2000 + 1 * p.val; omega
    | ⟨1, _⟩ => show win5_3.index t (1 : Fin 2) * 128 + 1 * q.val = win5_9.index t (1 : Fin 2) * 128 + 1 * q.val; omega
  have h4 : ((cfg5.win 4).blk t).view.emb (ix2 0 q) = ix2 0 q := by
    funext a; apply Fin.ext
    match a with
    | ⟨0, _⟩ => show win5_4.index t (0 : Fin 2) * 1 + 1 * 0 = 0; omega
    | ⟨1, _⟩ => show win5_4.index t (1 : Fin 2) * 128 + 1 * q.val = q.val; omega
  have h5 : ((cfg5.win 5).blk t).view.emb (ix2 0 q) = ix2 0 q := by
    funext a; apply Fin.ext
    match a with
    | ⟨0, _⟩ => show win5_5.index t (0 : Fin 2) * 1 + 1 * 0 = 0; omega
    | ⟨1, _⟩ => show win5_5.index t (1 : Fin 2) * 128 + 1 * q.val = q.val; omega
  have h6 : ((cfg5.win 6).blk t).view.emb (ix2 0 q) = ix2 0 q := by
    funext a; apply Fin.ext
    match a with
    | ⟨0, _⟩ => show win5_6.index t (0 : Fin 2) * 1 + 1 * 0 = 0; omega
    | ⟨1, _⟩ => show win5_6.index t (1 : Fin 2) * 128 + 1 * q.val = q.val; omega
  have h7 : ((cfg5.win 7).blk t).view.emb (ix2 0 q) = ix2 0 q := by
    funext a; apply Fin.ext
    match a with
    | ⟨0, _⟩ => show win5_7.index t (0 : Fin 2) * 1 + 1 * 0 = 0; omega
    | ⟨1, _⟩ => show win5_7.index t (1 : Fin 2) * 128 + 1 * q.val = q.val; omega
  have h8 : ((cfg5.win 8).blk t).view.emb (ix2 0 q) = ix2 0 q := by
    funext a; apply Fin.ext
    match a with
    | ⟨0, _⟩ => show win5_8.index t (0 : Fin 2) * 1 + 1 * 0 = 0; omega
    | ⟨1, _⟩ => show win5_8.index t (1 : Fin 2) * 128 + 1 * q.val = q.val; omega
  show k5_pay1 (F := Ideal) (iblk5 V c 0 t) (iblk5 V c 3 t) (iblk5 V c 1 t) (iblk5 V c 4 t) (iblk5 V c 2 t) (iblk5 V c 7 t) (iblk5 V c 8 t) (iblk5 V c 5 t) (iblk5 V c 6 t) (ix2 p q)
    = combineRes (V c main_v108) (V c main_v28) (V c main_v95) (V c main_v92) (V c main_v119) (V c main_v122) (V c main_v123) (V c main_v120) (V c main_v121) (((cfg5.win 9).blk t).view.emb (ix2 p q))
  refine pay5_block _ _ _ _ _ _ _ _ _ _ _ _ _ _ _ _ _ _ p q _ ?_ ?_ ?_ ?_ ?_ ?_ ?_ ?_ ?_ ?_
  · exact Fin.ext (show win5_9.index t (1 : Fin 2) * 128 + 1 * q.val = q.val by omega)
  · show V c main_v108 (((cfg5.win 0).blk t).view.emb (ix2 p q)) = V c main_v108 (((cfg5.win 9).blk t).view.emb (ix2 p q)); rw [h0]
  · show V c main_v28 (((cfg5.win 3).blk t).view.emb (ix2 p q)) = V c main_v28 (((cfg5.win 9).blk t).view.emb (ix2 p q)); rw [h3]
  · show V c main_v95 (((cfg5.win 1).blk t).view.emb (ix2 p q)) = V c main_v95 (((cfg5.win 9).blk t).view.emb (ix2 p q)); rw [h1]
  · show V c main_v92 (((cfg5.win 2).blk t).view.emb (ix2 p q)) = V c main_v92 (((cfg5.win 9).blk t).view.emb (ix2 p q)); rw [h2]
  · show V c main_v119 (((cfg5.win 4).blk t).view.emb (ix2 0 q)) = V c main_v119 (ix2 0 q); rw [h4]
  · show V c main_v122 (((cfg5.win 7).blk t).view.emb (ix2 0 q)) = V c main_v122 (ix2 0 q); rw [h7]
  · show V c main_v123 (((cfg5.win 8).blk t).view.emb (ix2 0 q)) = V c main_v123 (ix2 0 q); rw [h8]
  · show V c main_v120 (((cfg5.win 5).blk t).view.emb (ix2 0 q)) = V c main_v120 (ix2 0 q); rw [h5]
  · show V c main_v121 (((cfg5.win 6).blk t).view.emb (ix2 0 q)) = V c main_v121 (ix2 0 q); rw [h6]

/-- An index of the output array is in point `t`'s block iff each coordinate is in the block's range. -/
theorem mem_blk5 (t : Fin cfg5.N) (i : S50000x128.Idx) :
    i ∈ ((cfg5.win 9).blk t).view.set ↔ ∀ a : Fin 2, win5_9.index t a * S2000x128.size a ≤ (i a).val ∧ (i a).val < win5_9.index t a * S2000x128.size a + S2000x128.size a := by
  show i ∈ ((View.whole main_v124).slice (win5_9.rect t)).set ↔ _
  rw [View.set_slice_whole, Rect.mem_set_unit]
  exact Iff.rfl

/-- Row `r` is in the block of point `r / 2000`: the 25 blocks cover the array. -/
theorem cover5 (i : S50000x128.Idx) : ∃ t : Fin cfg5.N, (cfg5.win 9).flush t = true ∧ i ∈ ((cfg5.win 9).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, -, -, -, -, -, -, -, -, -, -, -, -, e90, e91⟩ := idx_facts5 t
  refine ⟨t, flush5_9 t, ?_⟩
  rw [mem_blk5]
  intro a
  match a with
  | ⟨0, _⟩ => show win5_9.index t (0 : Fin 2) * 2000 ≤ (i 0).val ∧ (i 0).val < win5_9.index t (0 : Fin 2) * 2000 + 2000; omega
  | ⟨1, _⟩ => show win5_9.index t (1 : Fin 2) * 128 ≤ (i 1).val ∧ (i 1).val < win5_9.index t (1 : Fin 2) * 128 + 128; omega

/-- The output array after the run is `combineRes` of the arrays the region finds. -/
theorem final5 (V : (c : Dev nD) → (b : Ref sig .tc) → Buf (Elt Ideal) ((c : Thread nD τ).loc b)) (c : Dev nD) :
    (dat5 (F := Ideal) V c).arrAt 9 cfg5.N = combineRes (V c main_v108) (V c main_v28) (V c main_v95) (V c main_v92) (V c main_v119) (V c main_v122) (V c main_v123) (V c main_v120) (V c main_v121) :=
  (dat5 (F := Ideal) V c).arrAt_eq_of_cover 9 _ (fun t _ => flushed5_eq V c t) cover5

/-- The reference's activation of this layer at an index: the same term, its [128] parameter vectors read at the column. -/
theorem ref175_apply (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal)) (i : S50000x128.Idx) :
    val_main_v175 (F := Ideal) x0 x1 x2 x3 x4 x5 x6 x7 i
      = combineRes (val_main_v143 (F := Ideal) x0 x1 x2 x3 x4 x5 x6 x7) (val_main_v145 (F := Ideal) x1) (val_main_v130 (F := Ideal) x0 x1 x2 x3 x4 x5 x6 x7)
          (val_main_v125 (F := Ideal) x0 x1 x2 x3 x4 x5 x6 x7)
          (fun r => val_main_v129 (F := Ideal) x3 (ix1 (r 1))) (fun r => val_main_v153 (F := Ideal) x6 (ix1 (r 1)))
          (fun r => val_main_v158 (F := Ideal) x7 (ix1 (r 1))) (fun r => val_main_v166 (F := Ideal) x4 (ix1 (r 1)))
          (fun r => val_main_v171 (F := Ideal) x5 (ix1 (r 1))) i := by
  have e149 : idx_main_v148 (idx_main_v149 i) = ix1 (i 1) := funext fun a => match a with | ⟨0, _⟩ => rfl
  have e155 : idx_main_v154 (idx_main_v155 i) = ix1 (i 1) := funext fun a => match a with | ⟨0, _⟩ => rfl
  have e163 : idx_main_v162 (idx_main_v163 i) = ix1 (i 1) := funext fun a => match a with | ⟨0, _⟩ => rfl
  have e168 : idx_main_v167 (idx_main_v168 i) = ix1 (i 1) := funext fun a => match a with | ⟨0, _⟩ => rfl
  have e173 : idx_main_v172 (idx_main_v173 i) = ix1 (i 1) := funext fun a => match a with | ⟨0, _⟩ => rfl
  rw [val_main_v175_apply, val_main_v174_apply, val_main_v173_apply, val_main_v172_apply, val_main_v169_apply, val_main_v168_apply,
    val_main_v167_apply, val_main_v164_apply, val_main_v163_apply, val_main_v162_apply, val_main_v161_apply, val_main_v160_apply,
    val_main_v159_apply, val_main_cst_16_apply, val_main_v156_apply, val_main_v155_apply, val_main_v154_apply, val_main_v151_apply, val_main_v150_apply,
    val_main_v149_apply, val_main_v148_apply, val_main_v147_apply, val_main_v146_apply, val_main_call2_v0_apply, val_main_call2_cst_apply,
    e149, e155, e163, e168, e173]
  generalize val_main_v143 (F := Ideal) x0 x1 x2 x3 x4 x5 x6 x7 = A
  generalize val_main_v145 (F := Ideal) x1 = S
  generalize val_main_v130 (F := Ideal) x0 x1 x2 x3 x4 x5 x6 x7 = H
  generalize val_main_v125 (F := Ideal) x0 x1 x2 x3 x4 x5 x6 x7 = P
  generalize val_main_v129 (F := Ideal) x3 = B
  generalize val_main_v153 (F := Ideal) x6 = MU
  generalize val_main_v158 (F := Ideal) x7 = VR
  generalize val_main_v166 (F := Ideal) x4 = G
  generalize val_main_v171 (F := Ideal) x5 = BE
  rfl

/-- REGION 5: if the arrays the region finds are the reference's stages, its output array after the run is the
    reference's activation of this layer. -/
theorem comb5_eq (V : (c : Dev nD) → (b : Ref sig .tc) → Buf (Elt Ideal) ((c : Thread nD τ).loc b)) (c : Dev nD) (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S3x128x128, .f32⟩ : BufTy).Contents (Elt Ideal)) (x3 x4 x5 x6 x7 : (⟨Cert.ReferenceIdeal.S3x128, .f32⟩ : BufTy).Contents (Elt Ideal))
    (hagg : V c main_v108 = val_main_v143 (F := Ideal) x0 x1 x2 x3 x4 x5 x6 x7) (hproj : V c main_v95 = val_main_v130 (F := Ideal) x0 x1 x2 x3 x4 x5 x6 x7)
    (hprev : V c main_v92 = val_main_v125 (F := Ideal) x0 x1 x2 x3 x4 x5 x6 x7) (hsn : V c main_v28 = val_main_v145 (F := Ideal) x1)
    (hb : ∀ j : Fin 128, (V c main_v119 : S1x128.Idx → EReal) (ix2 0 j) = (val_main_v129 (F := Ideal) x3 : S128.Idx → EReal) (ix1 j))
    (hg : ∀ j : Fin 128, (V c main_v120 : S1x128.Idx → EReal) (ix2 0 j) = (val_main_v166 (F := Ideal) x4 : S128.Idx → EReal) (ix1 j))
    (hbe : ∀ j : Fin 128, (V c main_v121 : S1x128.Idx → EReal) (ix2 0 j) = (val_main_v171 (F := Ideal) x5 : S128.Idx → EReal) (ix1 j))
    (hm : ∀ j : Fin 128, (V c main_v122 : S1x128.Idx → EReal) (ix2 0 j) = (val_main_v153 (F := Ideal) x6 : S128.Idx → EReal) (ix1 j))
    (hv : ∀ j : Fin 128, (V c main_v123 : S1x128.Idx → EReal) (ix2 0 j) = (val_main_v158 (F := Ideal) x7 : S128.Idx → EReal) (ix1 j)) :
    (dat5 (F := Ideal) V c).arrAt 9 cfg5.N = val_main_v175 (F := Ideal) x0 x1 x2 x3 x4 x5 x6 x7 := by
  rw [final5 V c]
  funext i
  rw [ref175_apply]
  exact combineRes_ext i (congrFun hagg i) (congrFun hsn i) (congrFun hproj i) (congrFun hprev i) (hb (i 1)) (hm (i 1)) (hv (i 1)) (hg (i 1)) (hbe (i 1))

end Cert.KernelIdeal.CombineRegion

end
-- ==== Proof.FcRegion.lean ====
import proofs.«104718_j31121333027185_1_alg».proof.Proof.Gen.KernelIdeal.Frame
import proofs.«104718_j31121333027185_1_alg».proof.Proof.Gen.ReferenceIdeal.Read
import Idealize.ShloMosaic.Lib.Pipeline.Value
import Idealize.ShloMosaic.Lib.ValueIdx
import Idealize.ShloMosaic.PureOps.Ideal.Laws

/-!
# The last region: the fully connected layer and the logistic function

The region reads the last hidden layer `[50000,128]` in row blocks of 2000, the weight column `[128,1]` and the bias
`[1,1]`, and writes `[50000,1]`: row `r` of the result is `1 / (1 + exp (0 - (∑ k, h r k * w k + bias)))`.
The reference computes the same expression row by row with `dot_general`, `negate`, `exponential` and `divide`.
Both sides perform the same operations in the same order, so they are compared index by index.
-/

set_option maxRecDepth 16384

noncomputable section

open scoped BigOperators
open Idealize.ShloMosaic Idealize.ShloMosaic.TcCoe Idealize.SL.Sem
open Idealize.ShloMosaic.Pipeline (Dat)
open Idealize.ShloMosaic.ValueIdx

namespace Cert.KernelIdeal.FcRegion

open Cert.KernelIdeal Cert.KernelIdeal.Gen

/-! ## The arithmetic -/

/-- The logistic function in the form both programs compute it: `1 / (1 + exp (0 - x))`. -/
def sigm (x : EReal) : EReal :=
  Ideal.div (Ideal.ofBits .f32 0x3F800000#32)
    (Ideal.ofBits .f32 0x3F800000#32 + Ideal.exp (Ideal.ofBits .f32 0x00000000#32 - x))

/-- Row `i` of the result: the logistic function of the row's dot product with the weight column, plus the bias. -/
def fcOut (H : S50000x128.Idx → EReal) (W : S128x1.Idx → EReal) (β : EReal) : S50000x1.Idx → EReal :=
  fun i => sigm ((∑ k : Fin 128, H (ix2 (i 0) k) * W (ix2 k (0 : Fin 1))) + β)

/-! ## The body's payload at an index -/

theorem lhs_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-- The product of a `[2000,128]` block with the `[128,1]` column into a zero accumulator, at row `p`: the sum over
    the 128 lanes of the row's entries times the column's. -/
theorem matmul_row (h : FVec Ideal S2000x128 .bf16) (w : FVec Ideal S128x1 .bf16) (p : Fin 2000) (q : Fin 1) :
    FloatOps.matmul dot_S2000x128_S128x1_S2000x1_1_0_0_1_n_n none h w (constant (F := Ideal) S2000x1 .f32 0x00000000#32) (ix2 p q)
      = ∑ k : Fin 128, h (ix2 p k) * w (ix2 k q) := by
  rw [Ideal.matmul_constant_zero_apply, ← Equiv.sum_comp (contrEquiv1 dot_S2000x128_S128x1_S2000x1_1_0_0_1_n_n 128 rfl rfl).symm]
  refine Finset.sum_congr rfl fun k _ => ?_
  have hk := contrEquiv1_symm_val dot_S2000x128_S128x1_S2000x1_1_0_0_1_n_n 128 rfl rfl k
  have el : dot_S2000x128_S128x1_S2000x1_1_0_0_1_n_n.lhsIdx (ix2 p q) ((contrEquiv1 dot_S2000x128_S128x1_S2000x1_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x1_S2000x1_1_0_0_1_n_n.rhsIdx (ix2 p q) ((contrEquiv1 dot_S2000x128_S128x1_S2000x1_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The body's arithmetic at row `p` of its block. -/
theorem pay_apply (h : Vec Ideal S2000x128 .f32) (w : Vec Ideal S128x1 .f32) (b : Vec Ideal S1x1 .f32)
    (p : Fin 2000) (q : Fin 1) :
    k6_pay1 (F := Ideal) h w b (ix2 p q) =
      sigm ((∑ k : Fin 128, h (ix2 p k) * w (ix2 k (0 : Fin 1))) + b (ix2 (0 : Fin 1) (0 : Fin 1))) := by
  obtain rfl : q = 0 := Subsingleton.elim _ _
  unfold k6_pay1
  simp only [shapeCast_self]
  show sigm (FloatOps.matmul dot_S2000x128_S128x1_S2000x1_1_0_0_1_n_n none (truncf .bf16 (h : FVec Ideal S2000x128 .f32) _) (truncf .bf16 (w : FVec Ideal S128x1 .f32) _)
      (constant (F := Ideal) S2000x1 .f32 0x00000000#32) (ix2 p (0 : Fin 1))
    + broadcastTo S2000x1 b broadcasts_S1x1_S2000x1 (ix2 p (0 : Fin 1))) = _
  rw [matmul_row, broadcastTo_apply b broadcasts_S1x1_S2000x1 (ix2 p (0 : Fin 1)) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])]
  rfl

/-! ## From blocks to the array -/

theorem hz : (![0, 0] : Fin 2 → Nat) = fun _ => 0 := funext fun a => by fin_cases a <;> rfl

/-- The body's arithmetic on a block whose row `j 0` holds row `i 0` of the array `H`. -/
theorem pay_block (h : Vec Ideal S2000x128 .f32) (w : Vec Ideal S128x1 .f32) (b : Vec Ideal S1x1 .f32)
    (H : S50000x128.Idx → EReal) (j : S2000x1.Idx) (i : S50000x1.Idx)
    (hh : ∀ k : Fin 128, h (ix2 (j 0) k) = H (ix2 (i 0) k)) :
    k6_pay1 (F := Ideal) h w b j = fcOut H w (b (ix2 (0 : Fin 1) (0 : Fin 1))) i := by
  obtain ⟨p, q, rfl⟩ : ∃ (p : Fin 2000) (q : Fin 1), j = ix2 p q := ⟨j 0, j 1, eq_ix2 j⟩
  have hh' : ∀ k : Fin 128, h (ix2 p k) = H (ix2 (i 0) k) := hh
  rw [pay_apply]
  simp only [hh']
  rfl

/-- The index maps over the grid: the hidden layer's row block moves with the output's, the weight column and the
    bias stay whole, and point `t` writes row block `t`. -/
theorem idx_facts : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

variable (V : (c : Dev nD) → (b : Ref sig .tc) → Buf (Elt Ideal) ((c : Thread nD τ).loc b))

/-- What point `t` writes back is block `t` of `fcOut` of the arrays as the region finds them. -/
theorem flushed_eq (c : Dev nD) (t : Fin cfg6.N) :
    (Gen.dat6 (F := Ideal) V c).flushed 3 t
      = ((cfg6.win 3).blk t).view.read (Elt Ideal)
          (fcOut (V c main_v124) (V c main_arg8) ((V c main_v125 : S1x1.Idx → EReal) (ix2 (0 : Fin 1) (0 : Fin 1)))) := by
  show (cfg6.win 3).cut (grid6.coords t) ((Gen.dat6 V c).after 3 t) = _
  rw [Gen.after6_3]
  unfold Gen.out6_3
  rw [View.canon_unit_zero hz]
  simp only [View.ld_unit_zero (S := S2000x128) hz, View.ld_unit_zero (S := S128x1) hz, View.ld_unit_zero (S := S1x1) hz]
  obtain ⟨e00, e01, e10, e11, e20, e21, e30, e31⟩ := idx_facts t
  have e1 : (Gen.iblk6 V c 1 t : S128x1.Idx → EReal) = V c main_arg8 := by
    funext x
    show V c main_arg8 (((cfg6.win 1).blk t).view.emb x) = V c main_arg8 x
    congr 1
    funext a; apply Fin.ext
    match a with
    | ⟨0, _⟩ => show win6_1.index t (0 : Fin 2) * 128 + 1 * (x 0).val = (x 0).val; omega
    | ⟨1, _⟩ => show win6_1.index t (1 : Fin 2) * 1 + 1 * (x 1).val = (x 1).val; omega
  have e2 : (Gen.iblk6 V c 2 t : S1x1.Idx → EReal) = V c main_v125 := by
    funext x
    show V c main_v125 (((cfg6.win 2).blk t).view.emb x) = V c main_v125 x
    congr 1
    funext a; apply Fin.ext
    match a with
    | ⟨0, _⟩ => show win6_2.index t (0 : Fin 2) * 1 + 1 * (x 0).val = (x 0).val; omega
    | ⟨1, _⟩ => show win6_2.index t (1 : Fin 2) * 1 + 1 * (x 1).val = (x 1).val; omega
  funext j
  show k6_pay1 (F := Ideal) (Gen.iblk6 V c 0 t) (Gen.iblk6 V c 1 t) (Gen.iblk6 V c 2 t) j
      = fcOut (V c main_v124) (V c main_arg8) ((V c main_v125 : S1x1.Idx → EReal) (ix2 (0 : Fin 1) (0 : Fin 1)))
          (((cfg6.win 3).blk t).view.emb j)
  rw [← e1, ← e2]
  refine pay_block (Gen.iblk6 V c 0 t) (Gen.iblk6 V c 1 t) (Gen.iblk6 V c 2 t) (V c main_v124) j
    (((cfg6.win 3).blk t).view.emb j) fun k => ?_
  show V c main_v124 (((cfg6.win 0).blk t).view.emb (ix2 (j 0) k)) = V c main_v124 (ix2 ((((cfg6.win 3).blk t).view.emb j) 0) k)
  congr 1
  funext a; apply Fin.ext
  match a with
  | ⟨0, _⟩ => show win6_0.index t (0 : Fin 2) * 2000 + 1 * (j 0).val = win6_3.index t (0 : Fin 2) * 2000 + 1 * (j 0).val; omega
  | ⟨1, _⟩ => show win6_0.index t (1 : Fin 2) * 128 + 1 * k.val = k.val; omega

/-- An index of the array is in point `t`'s block iff each coordinate is in the block's range on its axis. -/
theorem mem_blk (t : Fin cfg6.N) (i : S50000x1.Idx) :
    i ∈ ((cfg6.win 3).blk t).view.set ↔ ∀ a : Fin 2, win6_3.index t a * S2000x1.size a ≤ (i a).val ∧ (i a).val < win6_3.index t a * S2000x1.size a + S2000x1.size a := by
  show i ∈ ((View.whole main_v126).slice (win6_3.rect t)).set ↔ _
  rw [View.set_slice_whole, Rect.mem_set_unit]
  exact Iff.rfl

/-- Row `r` lies in the block of point `r / 2000`. -/
theorem cover (i : S50000x1.Idx) :
    ∃ t : Fin cfg6.N, (cfg6.win 3).flush t = true ∧ i ∈ ((cfg6.win 3).blk t).view.set := by
  have hi0 : (i 0).val < 50000 := (i 0).isLt
  have hi1 : (i 1).val < 1 := (i 1).isLt
  have hN : cfg6.N = 25 := Gen.N_6
  obtain ⟨t, ht⟩ : ∃ t : Fin cfg6.N, t.val = (i 0).val / 2000 := ⟨⟨(i 0).val / 2000, by rw [hN]; omega⟩, rfl⟩
  obtain ⟨-, -, -, -, -, -, e30, e31⟩ := idx_facts t
  refine ⟨t, Gen.flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 1 ≤ (i 1).val ∧ (i 1).val < win6_3.index t (1 : Fin 2) * 1 + 1; omega

/-- The result array after the region's run is `fcOut` of the arrays the region found. -/
theorem region_eq (c : Dev nD) :
    (Gen.dat6 (F := Ideal) V c).arrAt 3 cfg6.N
      = fcOut (V c main_v124) (V c main_arg8) ((V c main_v125 : S1x1.Idx → EReal) (ix2 (0 : Fin 1) (0 : Fin 1))) :=
  (Gen.dat6 (F := Ideal) V c).arrAt_eq_of_cover 3
    (fcOut (V c main_v124) (V c main_arg8) ((V c main_v125 : S1x1.Idx → EReal) (ix2 (0 : Fin 1) (0 : Fin 1))))
    (fun t _ => flushed_eq V c t) cover

/-! ## The reference's last stage is the same function -/

open Cert.ReferenceIdeal.Read in
/-- The reference's logistic output, index by index, is `fcOut` of its last hidden layer, its weight column and its bias. -/
theorem ref_eq (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal))
    (x8 : (⟨Cert.ReferenceIdeal.S128x1, .f32⟩ : BufTy).Contents (Elt Ideal))
    (x9 : (⟨Cert.ReferenceIdeal.S1, .f32⟩ : BufTy).Contents (Elt Ideal)) :
    val_main_v185 (F := Ideal) x0 x1 x2 x3 x4 x5 x6 x7 x8 x9
      = fcOut (val_main_v175 (F := Ideal) x0 x1 x2 x3 x4 x5 x6 x7) x8 ((x9 : S1.Idx → EReal) (ix1 (0 : Fin 1))) := by
  funext i
  rw [val_main_v185_apply, val_main_v184_apply, val_main_cst_18_apply, val_main_v183_apply, val_main_v182_apply,
    val_main_cst_17_apply, val_main_v181_apply, val_main_v180_apply, val_main_v179_apply, val_main_v176_apply,
    val_main_v178_apply, val_main_v177_apply]
  generalize val_main_v175 (F := Ideal) x0 x1 x2 x3 x4 x5 x6 x7 = H
  have el : ∀ k : Fin 128, lidx_main_v176 i k = ix2 (i 0) k := fun k => funext fun a => Fin.ext (by
    match a with
    | ⟨0, _⟩ => rfl
    | ⟨1, _⟩ => rfl)
  have er : ∀ k : Fin 128, ridx_main_v176 i k = ix2 k (0 : Fin 1) := fun k => funext fun a => Fin.ext (by
    match a with
    | ⟨0, _⟩ => rfl
    | ⟨1, _⟩ => show (i 1).val = 0; have h1 : (i 1).val < 1 := (i 1).isLt; omega)
  have eb : idx_main_v177 (idx_main_v178 i) = ix1 (0 : Fin 1) := funext fun a => Fin.ext (by
    match a with
    | ⟨0, _⟩ => rfl)
  simp only [el, er, eb]
  unfold fcOut sigm
  simp only [Ideal.hostDivf_def, Ideal.addf_def, Ideal.hostUnary_exp_def, Ideal.hostNegf_def, Ideal.negf_def,
    Ideal.ofBits_def, Ideal.ofBits_zero_f32, zero_sub]
  rfl

/-! ## The region against the reference -/

open Cert.ReferenceIdeal.Read in
/-- If the region finds the reference's last hidden layer, weight column and bias in its input arrays, it leaves
    the reference's logistic output in its result array. -/
theorem fc6_eq (c : Dev nD)
    (x0 : (⟨Cert.ReferenceIdeal.S50000x128, .f32⟩ : BufTy).Contents (Elt Ideal))
    (x1 : (⟨Cert.ReferenceIdeal.S2x800000, .i32⟩ : BufTy).Contents (Elt Ideal))
    (x2 : (⟨Cert.ReferenceIdeal.S3x128x128, .f32⟩ : BufTy).Contents (Elt Ideal))
    (x3 x4 x5 x6 x7 : (⟨Cert.ReferenceIdeal.S3x128, .f32⟩ : BufTy).Contents (Elt Ideal))
    (x8 : (⟨Cert.ReferenceIdeal.S128x1, .f32⟩ : BufTy).Contents (Elt Ideal))
    (x9 : (⟨Cert.ReferenceIdeal.S1, .f32⟩ : BufTy).Contents (Elt Ideal))
    (hh : V c main_v124 = val_main_v175 (F := Ideal) x0 x1 x2 x3 x4 x5 x6 x7)
    (hw : V c main_arg8 = x8)
    (hb : (V c main_v125 : S1x1.Idx → EReal) (ix2 (0 : Fin 1) (0 : Fin 1)) = (x9 : S1.Idx → EReal) (ix1 (0 : Fin 1))) :
    (Gen.dat6 (F := Ideal) V c).arrAt 3 cfg6.N = val_main_v185 (F := Ideal) x0 x1 x2 x3 x4 x5 x6 x7 x8 x9 := by
  rw [region_eq V c, ref_eq x0 x1 x2 x3 x4 x5 x6 x7 x8 x9, hh, hw, hb]

end Cert.KernelIdeal.FcRegion

end
-- ==== Proof.StagesA.lean ====
/-
  The idealized kernel's memory, boundary by boundary, read as the reference's stages (first layer).
  After the opening host operations the buffers hold the edge lists, the edge weights, the self-loop weights spread over the
  feature axis and the first layer's weight matrix; the first projection region leaves the node features times that matrix;
  the next host operations gather, weigh and scatter-add it along the edges and lay the five batch-norm rows out as one-row
  arrays; the first combine region leaves the first hidden layer.  Each fact says: this buffer, at this boundary, holds the
  reference's stage of the same launch arguments.  A buffer no operation writes in a segment is carried across it unchanged.
-/
import proofs.«104718_j31121333027185_1_alg».proof.Proof.Gen.KernelIdeal.Frame
import proofs.«104718_j31121333027185_1_alg».proof.Proof.Gen.ReferenceIdeal.Read
import Idealize.ShloMosaic.Lib.StableHlo.Run
import Idealize.ShloMosaic.Lib.ValueIdx
import proofs.«104718_j31121333027185_1_alg».proof.Proof.LibReshapeAt
import proofs.«104718_j31121333027185_1_alg».proof.Proof.ProjRegion
import proofs.«104718_j31121333027185_1_alg».proof.Proof.CombineRegion
import proofs.«104718_j31121333027185_1_alg».proof.Proof.FcRegion

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 1 -/

theorem w1_arg0 : W1 m ρ c (Proc.devRef .tc main_arg0) = m ((c : Thread nD τ).loc main_arg0) := by
  show StableHlo.after hostOps0 (W0 m ρ c) (Proc.devRef .tc main_arg0) = _
  after_results_simp

theorem w1_arg2 : W1 m ρ c (Proc.devRef .tc main_arg2) = m ((c : Thread nD τ).loc main_arg2) := by
  show StableHlo.after hostOps0 (W0 m ρ c) (Proc.devRef .tc main_arg2) = _
  after_results_simp

theorem w1_arg3 : W1 m ρ c (Proc.devRef .tc main_arg3) = m ((c : Thread nD τ).loc main_arg3) := by
  show StableHlo.after hostOps0 (W0 m ρ c) (Proc.devRef .tc main_arg3) = _
  after_results_simp

theorem w1_arg4 : W1 m ρ c (Proc.devRef .tc main_arg4) = m ((c : Thread nD τ).loc main_arg4) := by
  show StableHlo.after hostOps0 (W0 m ρ c) (Proc.devRef .tc main_arg4) = _
  after_results_simp

theorem w1_arg5 : W1 m ρ c (Proc.devRef .tc main_arg5) = m ((c : Thread nD τ).loc main_arg5) := by
  show StableHlo.after hostOps0 (W0 m ρ c) (Proc.devRef .tc main_arg5) = _
  after_results_simp

theorem w1_arg6 : W1 m ρ c (Proc.devRef .tc main_arg6) = m ((c : Thread nD τ).loc main_arg6) := by
  show StableHlo.after hostOps0 (W0 m ρ c) (Proc.devRef .tc main_arg6) = _
  after_results_simp

theorem w1_arg7 : W1 m ρ c (Proc.devRef .tc main_arg7) = m ((c : Thread nD τ).loc main_arg7) := by
  show StableHlo.after hostOps0 (W0 m ρ c) (Proc.devRef .tc main_arg7) = _
  after_results_simp

theorem w1_arg8 : W1 m ρ c (Proc.devRef .tc main_arg8) = m ((c : Thread nD τ).loc main_arg8) := by
  show StableHlo.after hostOps0 (W0 m ρ c) (Proc.devRef .tc main_arg8) = _
  after_results_simp

theorem w1_arg9 : W1 m ρ c (Proc.devRef .tc main_arg9) = m ((c : Thread nD τ).loc main_arg9) := by
  show StableHlo.after hostOps0 (W0 m ρ c) (Proc.devRef .tc main_arg9) = _
  after_results_simp

theorem w1_v1 : W1 m ρ c (Proc.devRef .tc main_v1) = val_main_v1 (F := Ideal) (m ((c : Thread nD τ).loc main_arg1)) := by
  show StableHlo.after hostOps0 (W0 m ρ c) (Proc.devRef .tc main_v1) = _
  after_results_simp
  rfl

theorem w1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem w1_v25 : W1 m ρ c (Proc.devRef .tc main_v25) = val_main_v25 (F := Ideal) (m ((c : Thread nD τ).loc main_arg1)) := by
  show StableHlo.after hostOps0 (W0 m ρ c) (Proc.devRef .tc main_v25) = _
  after_results_simp
  rfl

theorem w1_v28 : W1 m ρ c (Proc.devRef .tc main_v28) = val_main_v46 (F := Ideal) (m ((c : Thread nD τ).loc main_arg1)) := by
  show StableHlo.after hostOps0 (W0 m ρ c) (Proc.devRef .tc main_v28) = _
  after_results_simp
  rfl

theorem w1_v30 : W1 m ρ c (Proc.devRef .tc main_v30) = val_main_v28 (F := Ideal) (m ((c : Thread nD τ).loc main_arg2)) := by
  show StableHlo.after hostOps0 (W0 m ρ c) (Proc.devRef .tc main_v30) = _
  after_results_simp
  rfl

/-! ## Boundary 2 -/

theorem w2_arg2 : W2 m ρ c (Proc.devRef .tc main_arg2) = m ((c : Thread nD τ).loc main_arg2) :=
  (W2_of_ne m ρ c main_arg2 (by decide)).trans (w1_arg2 m ρ c)

theorem w2_arg3 : W2 m ρ c (Proc.devRef .tc main_arg3) = m ((c : Thread nD τ).loc main_arg3) :=
  (W2_of_ne m ρ c main_arg3 (by decide)).trans (w1_arg3 m ρ c)

theorem w2_arg4 : W2 m ρ c (Proc.devRef .tc main_arg4) = m ((c : Thread nD τ).loc main_arg4) :=
  (W2_of_ne m ρ c main_arg4 (by decide)).trans (w1_arg4 m ρ c)

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

theorem w2_arg8 : W2 m ρ c (Proc.devRef .tc main_arg8) = m ((c : Thread nD τ).loc main_arg8) :=
  (W2_of_ne m ρ c main_arg8 (by decide)).trans (w1_arg8 m ρ c)

theorem w2_arg9 : W2 m ρ c (Proc.devRef .tc main_arg9) = m ((c : Thread nD τ).loc main_arg9) :=
  (W2_of_ne m ρ c main_arg9 (by decide)).trans (w1_arg9 m ρ c)

theorem w2_v1 : W2 m ρ c (Proc.devRef .tc main_v1) = val_main_v1 (F := Ideal) (m ((c : Thread nD τ).loc main_arg1)) :=
  (W2_of_ne m ρ c main_v1 (by decide)).trans (w1_v1 m ρ c)

theorem w2_v3 : W2 m ρ c (Proc.devRef .tc main_v3) = val_main_v3 (F := Ideal) (m ((c : Thread nD τ).loc main_arg1)) :=
  (W2_of_ne m ρ c main_v3 (by decide)).trans (w1_v3 m ρ c)

theorem w2_v25 : W2 m ρ c (Proc.devRef .tc main_v25) = val_main_v25 (F := Ideal) (m ((c : Thread nD τ).loc main_arg1)) :=
  (W2_of_ne m ρ c main_v25 (by decide)).trans (w1_v25 m ρ c)

theorem w2_v28 : W2 m ρ c (Proc.devRef .tc main_v28) = val_main_v46 (F := Ideal) (m ((c : Thread nD τ).loc main_arg1)) :=
  (W2_of_ne m ρ c main_v28 (by decide)).trans (w1_v28 m ρ c)

theorem w2_v31 : W2 m ρ c (Proc.devRef .tc main_v31) = val_main_v31 (F := Ideal) (m ((c : Thread nD τ).loc main_arg0)) (m ((c : Thread nD τ).loc main_arg2)) :=
  (W2_arr m ρ c 2).trans (Cert.KernelIdeal.ProjRegion.proj0_eq (V1 m ρ) c (m ((c : Thread nD τ).loc main_arg0)) (m ((c : Thread nD τ).loc main_arg2)) (w1_arg0 m ρ c) (w1_v30 m ρ c))

/-! ## Boundary 3 -/

theorem w3_arg2 : W3 m ρ c (Proc.devRef .tc main_arg2) = m ((c : Thread nD τ).loc main_arg2) := by
  show StableHlo.after hostOps1 (W2 m ρ c) (Proc.devRef .tc main_arg2) = _
  after_results_simp
  exact w2_arg2 m ρ c

theorem w3_arg3 : W3 m ρ c (Proc.devRef .tc main_arg3) = m ((c : Thread nD τ).loc main_arg3) := by
  show StableHlo.after hostOps1 (W2 m ρ c) (Proc.devRef .tc main_arg3) = _
  after_results_simp
  exact w2_arg3 m ρ c

theorem w3_arg4 : W3 m ρ c (Proc.devRef .tc main_arg4) = m ((c : Thread nD τ).loc main_arg4) := by
  show StableHlo.after hostOps1 (W2 m ρ c) (Proc.devRef .tc main_arg4) = _
  after_results_simp
  exact w2_arg4 m ρ c

theorem w3_arg5 : W3 m ρ c (Proc.devRef .tc main_arg5) = m ((c : Thread nD τ).loc main_arg5) := by
  show StableHlo.after hostOps1 (W2 m ρ c) (Proc.devRef .tc main_arg5) = _
  after_results_simp
  exact w2_arg5 m ρ c

theorem w3_arg6 : W3 m ρ c (Proc.devRef .tc main_arg6) = m ((c : Thread nD τ).loc main_arg6) := by
  show StableHlo.after hostOps1 (W2 m ρ c) (Proc.devRef .tc main_arg6) = _
  after_results_simp
  exact w2_arg6 m ρ c

theorem w3_arg7 : W3 m ρ c (Proc.devRef .tc main_arg7) = m ((c : Thread nD τ).loc main_arg7) := by
  show StableHlo.after hostOps1 (W2 m ρ c) (Proc.devRef .tc main_arg7) = _
  after_results_simp
  exact w2_arg7 m ρ c

theorem w3_arg8 : W3 m ρ c (Proc.devRef .tc main_arg8) = m ((c : Thread nD τ).loc main_arg8) := by
  show StableHlo.after hostOps1 (W2 m ρ c) (Proc.devRef .tc main_arg8) = _
  after_results_simp
  exact w2_arg8 m ρ c

theorem w3_arg9 : W3 m ρ c (Proc.devRef .tc main_arg9) = m ((c : Thread nD τ).loc main_arg9) := by
  show StableHlo.after hostOps1 (W2 m ρ c) (Proc.devRef .tc main_arg9) = _
  after_results_simp
  exact w2_arg9 m ρ c

theorem w3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  exact w2_v1 m ρ c

theorem w3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  exact w2_v3 m ρ c

theorem w3_v25 : W3 m ρ c (Proc.devRef .tc main_v25) = val_main_v25 (F := Ideal) (m ((c : Thread nD τ).loc main_arg1)) := by
  show StableHlo.after hostOps1 (W2 m ρ c) (Proc.devRef .tc main_v25) = _
  after_results_simp
  exact w2_v25 m ρ c

theorem w3_v28 : W3 m ρ c (Proc.devRef .tc main_v28) = val_main_v46 (F := Ideal) (m ((c : Thread nD τ).loc main_arg1)) := by
  show StableHlo.after hostOps1 (W2 m ρ c) (Proc.devRef .tc main_v28) = _
  after_results_simp
  exact w2_v28 m ρ c

theorem w3_v31 : W3 m ρ c (Proc.devRef .tc main_v31) = val_main_v31 (F := Ideal) (m ((c : Thread nD τ).loc main_arg0)) (m ((c : Thread nD τ).loc main_arg2)) := by
  show StableHlo.after hostOps1 (W2 m ρ c) (Proc.devRef .tc main_v31) = _
  after_results_simp
  exact w2_v31 m ρ c

theorem w3_v44 : W3 m ρ c (Proc.devRef .tc main_v44) = val_main_v44 (F := Ideal) (m ((c : Thread nD τ).loc main_arg0)) (m ((c : Thread nD τ).loc main_arg1)) (m ((c : Thread nD τ).loc main_arg2)) := by
  show StableHlo.after hostOps1 (W2 m ρ c) (Proc.devRef .tc main_v44) = _
  after_results_simp
  rw [w2_v3 m ρ c, w2_v25 m ρ c, w2_v1 m ρ c, w2_v31 m ρ c]
  rfl

theorem w3_v55 : ∀ j : Fin 128, (W3 m ρ c (Proc.devRef .tc main_v55) : S1x128.Idx → EReal) (ValueIdx.ix2 (0 : Fin 1) j) = (val_main_v30 (F := Ideal) (m ((c : Thread nD τ).loc main_arg3)) : S128.Idx → EReal) (ValueIdx.ix1 j) := by
  intro j
  have e : (W3 m ρ c (Proc.devRef .tc main_v55) : S1x128.Idx → EReal) = shapeCast S1x128 (val_main_v30 (F := Ideal) (m ((c : Thread nD τ).loc main_arg3)) : S128.Idx → EReal) shapeCasts_S128_S1x128 := by
    show StableHlo.after hostOps1 (W2 m ρ c) (Proc.devRef .tc main_v55) = _
    after_results_simp
    rw [w2_arg3 m ρ c]
    rfl
  rw [e]
  exact Cert.LibReshapeAt.cast12 _ _ j

theorem w3_v56 : ∀ j : Fin 128, (W3 m ρ c (Proc.devRef .tc main_v56) : S1x128.Idx → EReal) (ValueIdx.ix2 (0 : Fin 1) j) = (val_main_v66 (F := Ideal) (m ((c : Thread nD τ).loc main_arg4)) : S128.Idx → EReal) (ValueIdx.ix1 j) := by
  intro j
  have e : (W3 m ρ c (Proc.devRef .tc main_v56) : S1x128.Idx → EReal) = shapeCast S1x128 (val_main_v66 (F := Ideal) (m ((c : Thread nD τ).loc main_arg4)) : S128.Idx → EReal) shapeCasts_S128_S1x128 := by
    show StableHlo.after hostOps1 (W2 m ρ c) (Proc.devRef .tc main_v56) = _
    after_results_simp
    rw [w2_arg4 m ρ c]
    rfl
  rw [e]
  exact Cert.LibReshapeAt.cast12 _ _ j

theorem w3_v57 : ∀ j : Fin 128, (W3 m ρ c (Proc.devRef .tc main_v57) : S1x128.Idx → EReal) (ValueIdx.ix2 (0 : Fin 1) j) = (val_main_v71 (F := Ideal) (m ((c : Thread nD τ).loc main_arg5)) : S128.Idx → EReal) (ValueIdx.ix1 j) := by
  intro j
  have e : (W3 m ρ c (Proc.devRef .tc main_v57) : S1x128.Idx → EReal) = shapeCast S1x128 (val_main_v71 (F := Ideal) (m ((c : Thread nD τ).loc main_arg5)) : S128.Idx → EReal) shapeCasts_S128_S1x128 := by
    show StableHlo.after hostOps1 (W2 m ρ c) (Proc.devRef .tc main_v57) = _
    after_results_simp
    rw [w2_arg5 m ρ c]
    rfl
  rw [e]
  exact Cert.LibReshapeAt.cast12 _ _ j

theorem w3_v58 : ∀ j : Fin 128, (W3 m ρ c (Proc.devRef .tc main_v58) : S1x128.Idx → EReal) (ValueIdx.ix2 (0 : Fin 1) j) = (val_main_v53 (F := Ideal) (m ((c : Thread nD τ).loc main_arg6)) : S128.Idx → EReal) (ValueIdx.ix1 j) := by
  intro j
  have e : (W3 m ρ c (Proc.devRef .tc main_v58) : S1x128.Idx → EReal) = shapeCast S1x128 (val_main_v53 (F := Ideal) (m ((c : Thread nD τ).loc main_arg6)) : S128.Idx → EReal) shapeCasts_S128_S1x128 := by
    show StableHlo.after hostOps1 (W2 m ρ c) (Proc.devRef .tc main_v58) = _
    after_results_simp
    rw [w2_arg6 m ρ c]
    rfl
  rw [e]
  exact Cert.LibReshapeAt.cast12 _ _ j

theorem w3_v59 : ∀ j : Fin 128, (W3 m ρ c (Proc.devRef .tc main_v59) : S1x128.Idx → EReal) (ValueIdx.ix2 (0 : Fin 1) j) = (val_main_v58 (F := Ideal) (m ((c : Thread nD τ).loc main_arg7)) : S128.Idx → EReal) (ValueIdx.ix1 j) := by
  intro j
  have e : (W3 m ρ c (Proc.devRef .tc main_v59) : S1x128.Idx → EReal) = shapeCast S1x128 (val_main_v58 (F := Ideal) (m ((c : Thread nD τ).loc main_arg7)) : S128.Idx → EReal) shapeCasts_S128_S1x128 := by
    show StableHlo.after hostOps1 (W2 m ρ c) (Proc.devRef .tc main_v59) = _
    after_results_simp
    rw [w2_arg7 m ρ c]
    rfl
  rw [e]
  exact Cert.LibReshapeAt.cast12 _ _ j

/-! ## Boundary 4 -/

theorem w4_arg2 : W4 m ρ c (Proc.devRef .tc main_arg2) = m ((c : Thread nD τ).loc main_arg2) :=
  (W4_of_ne m ρ c main_arg2 (by decide)).trans (w3_arg2 m ρ c)

theorem w4_arg3 : W4 m ρ c (Proc.devRef .tc main_arg3) = m ((c : Thread nD τ).loc main_arg3) :=
  (W4_of_ne m ρ c main_arg3 (by decide)).trans (w3_arg3 m ρ c)

theorem w4_arg4 : W4 m ρ c (Proc.devRef .tc main_arg4) = m ((c : Thread nD τ).loc main_arg4) :=
  (W4_of_ne m ρ c main_arg4 (by decide)).trans (w3_arg4 m ρ c)

theorem w4_arg5 : W4 m ρ c (Proc.devRef .tc main_arg5) = m ((c : Thread nD τ).loc main_arg5) :=
  (W4_of_ne m ρ c main_arg5 (by decide)).trans (w3_arg5 m ρ c)

theorem w4_arg6 : W4 m ρ c (Proc.devRef .tc main_arg6) = m ((c : Thread nD τ).loc main_arg6) :=
  (W4_of_ne m ρ c main_arg6 (by decide)).trans (w3_arg6 m ρ c)

theorem w4_arg7 : W4 m ρ c (Proc.devRef .tc main_arg7) = m ((c : Thread nD τ).loc main_arg7) :=
  (W4_of_ne m ρ c main_arg7 (by decide)).trans (w3_arg7 m ρ c)

theorem w4_arg8 : W4 m ρ c (Proc.devRef .tc main_arg8) = m ((c : Thread nD τ).loc main_arg8) :=
  (W4_of_ne m ρ c main_arg8 (by decide)).trans (w3_arg8 m ρ c)

theorem w4_arg9 : W4 m ρ c (Proc.devRef .tc main_arg9) = m ((c : Thread nD τ).loc main_arg9) :=
  (W4_of_ne m ρ c main_arg9 (by decide)).trans (w3_arg9 m ρ c)

theorem w4_v1 : W4 m ρ c (Proc.devRef .tc main_v1) = val_main_v1 (F := Ideal) (m ((c : Thread nD τ).loc main_arg1)) :=
  (W4_of_ne m ρ c main_v1 (by decide)).trans (w3_v1 m ρ c)

theorem w4_v3 : W4 m ρ c (Proc.devRef .tc main_v3) = val_main_v3 (F := Ideal) (m ((c : Thread nD τ).loc main_arg1)) :=
  (W4_of_ne m ρ c main_v3 (by decide)).trans (w3_v3 m ρ c)

theorem w4_v25 : W4 m ρ c (Proc.devRef .tc main_v25) = val_main_v25 (F := Ideal) (m ((c : Thread nD τ).loc main_arg1)) :=
  (W4_of_ne m ρ c main_v25 (by decide)).trans (w3_v25 m ρ c)

theorem w4_v28 : W4 m ρ c (Proc.devRef .tc main_v28) = val_main_v46 (F := Ideal) (m ((c : Thread nD τ).loc main_arg1)) :=
  ((W4_arr m ρ c 2).trans (((dat1 (V3 m ρ) c).arrAt_in 2 rfl _).trans (A_eq1 (V3 m ρ) c 2))).trans (w3_v28 m ρ c)

theorem w4_v60 : W4 m ρ c (Proc.devRef .tc main_v60) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 8).trans (Cert.KernelIdeal.CombineRegion.comb1_eq (V3 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w3_v44 m ρ c) (w3_v31 m ρ c) (w3_v28 m ρ c) (w3_v55 m ρ c) (w3_v56 m ρ c) (w3_v57 m ρ c) (w3_v58 m ρ c) (w3_v59 m ρ c))

end Cert.KernelIdeal.Stages

end
-- ==== Proof.StagesB.lean ====
/-
  The memory boundary by boundary, second layer: the second weight matrix is sliced, the projection region multiplies the first
  hidden layer by it, the host operations aggregate along the edges and lay out the second layer's rows, and the residual
  combine region leaves the second hidden layer.
-/
import proofs.«104718_j31121333027185_1_alg».proof.Proof.Gen.KernelIdeal.Frame
import proofs.«104718_j31121333027185_1_alg».proof.Proof.Gen.ReferenceIdeal.Read
import Idealize.ShloMosaic.Lib.StableHlo.Run
import Idealize.ShloMosaic.Lib.ValueIdx
import proofs.«104718_j31121333027185_1_alg».proof.Proof.LibReshapeAt
import proofs.«104718_j31121333027185_1_alg».proof.Proof.ProjRegion
import proofs.«104718_j31121333027185_1_alg».proof.Proof.CombineRegion
import proofs.«104718_j31121333027185_1_alg».proof.Proof.FcRegion
import proofs.«104718_j31121333027185_1_alg».proof.Proof.StagesA

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 5 -/

theorem w5_arg2 : W5 m ρ c (Proc.devRef .tc main_arg2) = m ((c : Thread nD τ).loc main_arg2) := by
  show StableHlo.after hostOps2 (W4 m ρ c) (Proc.devRef .tc main_arg2) = _
  after_results_simp
  exact w4_arg2 m ρ c

theorem w5_arg3 : W5 m ρ c (Proc.devRef .tc main_arg3) = m ((c : Thread nD τ).loc main_arg3) := by
  show StableHlo.after hostOps2 (W4 m ρ c) (Proc.devRef .tc main_arg3) = _
  after_results_simp
  exact w4_arg3 m ρ c

theorem w5_arg4 : W5 m ρ c (Proc.devRef .tc main_arg4) = m ((c : Thread nD τ).loc main_arg4) := by
  show StableHlo.after hostOps2 (W4 m ρ c) (Proc.devRef .tc main_arg4) = _
  after_results_simp
  exact w4_arg4 m ρ c

theorem w5_arg5 : W5 m ρ c (Proc.devRef .tc main_arg5) = m ((c : Thread nD τ).loc main_arg5) := by
  show StableHlo.after hostOps2 (W4 m ρ c) (Proc.devRef .tc main_arg5) = _
  after_results_simp
  exact w4_arg5 m ρ c

theorem w5_arg6 : W5 m ρ c (Proc.devRef .tc main_arg6) = m ((c : Thread nD τ).loc main_arg6) := by
  show StableHlo.after hostOps2 (W4 m ρ c) (Proc.devRef .tc main_arg6) = _
  after_results_simp
  exact w4_arg6 m ρ c

theorem w5_arg7 : W5 m ρ c (Proc.devRef .tc main_arg7) = m ((c : Thread nD τ).loc main_arg7) := by
  show StableHlo.after hostOps2 (W4 m ρ c) (Proc.devRef .tc main_arg7) = _
  after_results_simp
  exact w4_arg7 m ρ c

theorem w5_arg8 : W5 m ρ c (Proc.devRef .tc main_arg8) = m ((c : Thread nD τ).loc main_arg8) := by
  show StableHlo.after hostOps2 (W4 m ρ c) (Proc.devRef .tc main_arg8) = _
  after_results_simp
  exact w4_arg8 m ρ c

theorem w5_arg9 : W5 m ρ c (Proc.devRef .tc main_arg9) = m ((c : Thread nD τ).loc main_arg9) := by
  show StableHlo.after hostOps2 (W4 m ρ c) (Proc.devRef .tc main_arg9) = _
  after_results_simp
  exact w4_arg9 m ρ c

theorem w5_v1 : W5 m ρ c (Proc.devRef .tc main_v1) = val_main_v1 (F := Ideal) (m ((c : Thread nD τ).loc main_arg1)) := by
  show StableHlo.after hostOps2 (W4 m ρ c) (Proc.devRef .tc main_v1) = _
  after_results_simp
  exact w4_v1 m ρ c

theorem w5_v3 : W5 m ρ c (Proc.devRef .tc main_v3) = val_main_v3 (F := Ideal) (m ((c : Thread nD τ).loc main_arg1)) := by
  show StableHlo.after hostOps2 (W4 m ρ c) (Proc.devRef .tc main_v3) = _
  after_results_simp
  exact w4_v3 m ρ c

theorem w5_v25 : W5 m ρ c (Proc.devRef .tc main_v25) = val_main_v25 (F := Ideal) (m ((c : Thread nD τ).loc main_arg1)) := by
  show StableHlo.after hostOps2 (W4 m ρ c) (Proc.devRef .tc main_v25) = _
  after_results_simp
  exact w4_v25 m ρ c

theorem w5_v28 : W5 m ρ c (Proc.devRef .tc main_v28) = val_main_v46 (F := Ideal) (m ((c : Thread nD τ).loc main_arg1)) := by
  show StableHlo.after hostOps2 (W4 m ρ c) (Proc.devRef .tc main_v28) = _
  after_results_simp
  exact w4_v28 m ρ c

theorem w5_v60 : W5 m ρ c (Proc.devRef .tc main_v60) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v60) = _
  after_results_simp
  exact w4_v60 m ρ c

theorem w5_v62 : W5 m ρ c (Proc.devRef .tc main_v62) = val_main_v77 (F := Ideal) (m ((c : Thread nD τ).loc main_arg2)) := by
  show StableHlo.after hostOps2 (W4 m ρ c) (Proc.devRef .tc main_v62) = _
  after_results_simp
  rw [w4_arg2 m ρ c]
  rfl

/-! ## Boundary 6 -/

theorem w6_arg2 : W6 m ρ c (Proc.devRef .tc main_arg2) = m ((c : Thread nD τ).loc main_arg2) :=
  (W6_of_ne m ρ c main_arg2 (by decide)).trans (w5_arg2 m ρ c)

theorem w6_arg3 : W6 m ρ c (Proc.devRef .tc main_arg3) = m ((c : Thread nD τ).loc main_arg3) :=
  (W6_of_ne m ρ c main_arg3 (by decide)).trans (w5_arg3 m ρ c)

theorem w6_arg4 : W6 m ρ c (Proc.devRef .tc main_arg4) = m ((c : Thread nD τ).loc main_arg4) :=
  (W6_of_ne m ρ c main_arg4 (by decide)).trans (w5_arg4 m ρ c)

theorem w6_arg5 : W6 m ρ c (Proc.devRef .tc main_arg5) = m ((c : Thread nD τ).loc main_arg5) :=
  (W6_of_ne m ρ c main_arg5 (by decide)).trans (w5_arg5 m ρ c)

theorem w6_arg6 : W6 m ρ c (Proc.devRef .tc main_arg6) = m ((c : Thread nD τ).loc main_arg6) :=
  (W6_of_ne m ρ c main_arg6 (by decide)).trans (w5_arg6 m ρ c)

theorem w6_arg7 : W6 m ρ c (Proc.devRef .tc main_arg7) = m ((c : Thread nD τ).loc main_arg7) :=
  (W6_of_ne m ρ c main_arg7 (by decide)).trans (w5_arg7 m ρ c)

theorem w6_arg8 : W6 m ρ c (Proc.devRef .tc main_arg8) = m ((c : Thread nD τ).loc main_arg8) :=
  (W6_of_ne m ρ c main_arg8 (by decide)).trans (w5_arg8 m ρ c)

theorem w6_arg9 : W6 m ρ c (Proc.devRef .tc main_arg9) = m ((c : Thread nD τ).loc main_arg9) :=
  (W6_of_ne m ρ c main_arg9 (by decide)).trans (w5_arg9 m ρ c)

theorem w6_v1 : W6 m ρ c (Proc.devRef .tc main_v1) = val_main_v1 (F := Ideal) (m ((c : Thread nD τ).loc main_arg1)) :=
  (W6_of_ne m ρ c main_v1 (by decide)).trans (w5_v1 m ρ c)

theorem w6_v3 : W6 m ρ c (Proc.devRef .tc main_v3) = val_main_v3 (F := Ideal) (m ((c : Thread nD τ).loc main_arg1)) :=
  (W6_of_ne m ρ c main_v3 (by decide)).trans (w5_v3 m ρ c)

theorem w6_v25 : W6 m ρ c (Proc.devRef .tc main_v25) = val_main_v25 (F := Ideal) (m ((c : Thread nD τ).loc main_arg1)) :=
  (W6_of_ne m ρ c main_v25 (by decide)).trans (w5_v25 m ρ c)

theorem w6_v28 : W6 m ρ c (Proc.devRef .tc main_v28) = val_main_v46 (F := Ideal) (m ((c : Thread nD τ).loc main_arg1)) :=
  (W6_of_ne m ρ c main_v28 (by decide)).trans (w5_v28 m ρ c)

theorem w6_v60 : W6 m ρ c (Proc.devRef .tc main_v60) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W6_arr m ρ c 0).trans (((dat2 (V5 m ρ) c).arrAt_in 0 rfl _).trans (A_eq2 (V5 m ρ) c 0))).trans (w5_v60 m ρ c)

theorem w6_v63 : W6 m ρ c (Proc.devRef .tc main_v63) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W6_arr m ρ c 2).trans (Cert.KernelIdeal.ProjRegion.proj2_eq (V5 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w5_v60 m ρ c) (w5_v62 m ρ c))

/-! ## Boundary 7 -/

theorem w7_arg2 : W7 m ρ c (Proc.devRef .tc main_arg2) = m ((c : Thread nD τ).loc main_arg2) := by
  show StableHlo.after hostOps3 (W6 m ρ c) (Proc.devRef .tc main_arg2) = _
  after_results_simp
  exact w6_arg2 m ρ c

theorem w7_arg3 : W7 m ρ c (Proc.devRef .tc main_arg3) = m ((c : Thread nD τ).loc main_arg3) := by
  show StableHlo.after hostOps3 (W6 m ρ c) (Proc.devRef .tc main_arg3) = _
  after_results_simp
  exact w6_arg3 m ρ c

theorem w7_arg4 : W7 m ρ c (Proc.devRef .tc main_arg4) = m ((c : Thread nD τ).loc main_arg4) := by
  show StableHlo.after hostOps3 (W6 m ρ c) (Proc.devRef .tc main_arg4) = _
  after_results_simp
  exact w6_arg4 m ρ c

theorem w7_arg5 : W7 m ρ c (Proc.devRef .tc main_arg5) = m ((c : Thread nD τ).loc main_arg5) := by
  show StableHlo.after hostOps3 (W6 m ρ c) (Proc.devRef .tc main_arg5) = _
  after_results_simp
  exact w6_arg5 m ρ c

theorem w7_arg6 : W7 m ρ c (Proc.devRef .tc main_arg6) = m ((c : Thread nD τ).loc main_arg6) := by
  show StableHlo.after hostOps3 (W6 m ρ c) (Proc.devRef .tc main_arg6) = _
  after_results_simp
  exact w6_arg6 m ρ c

theorem w7_arg7 : W7 m ρ c (Proc.devRef .tc main_arg7) = m ((c : Thread nD τ).loc main_arg7) := by
  show StableHlo.after hostOps3 (W6 m ρ c) (Proc.devRef .tc main_arg7) = _
  after_results_simp
  exact w6_arg7 m ρ c

theorem w7_arg8 : W7 m ρ c (Proc.devRef .tc main_arg8) = m ((c : Thread nD τ).loc main_arg8) := by
  show StableHlo.after hostOps3 (W6 m ρ c) (Proc.devRef .tc main_arg8) = _
  after_results_simp
  exact w6_arg8 m ρ c

theorem w7_arg9 : W7 m ρ c (Proc.devRef .tc main_arg9) = m ((c : Thread nD τ).loc main_arg9) := by
  show StableHlo.after hostOps3 (W6 m ρ c) (Proc.devRef .tc main_arg9) = _
  after_results_simp
  exact w6_arg9 m ρ c

theorem w7_v1 : W7 m ρ c (Proc.devRef .tc main_v1) = val_main_v1 (F := Ideal) (m ((c : Thread nD τ).loc main_arg1)) := by
  show StableHlo.after hostOps3 (W6 m ρ c) (Proc.devRef .tc main_v1) = _
  after_results_simp
  exact w6_v1 m ρ c

theorem w7_v3 : W7 m ρ c (Proc.devRef .tc main_v3) = val_main_v3 (F := Ideal) (m ((c : Thread nD τ).loc main_arg1)) := by
  show StableHlo.after hostOps3 (W6 m ρ c) (Proc.devRef .tc main_v3) = _
  after_results_simp
  exact w6_v3 m ρ c

theorem w7_v25 : W7 m ρ c (Proc.devRef .tc main_v25) = val_main_v25 (F := Ideal) (m ((c : Thread nD τ).loc main_arg1)) := by
  show StableHlo.after hostOps3 (W6 m ρ c) (Proc.devRef .tc main_v25) = _
  after_results_simp
  exact w6_v25 m ρ c

theorem w7_v28 : W7 m ρ c (Proc.devRef .tc main_v28) = val_main_v46 (F := Ideal) (m ((c : Thread nD τ).loc main_arg1)) := by
  show StableHlo.after hostOps3 (W6 m ρ c) (Proc.devRef .tc main_v28) = _
  after_results_simp
  exact w6_v28 m ρ c

theorem w7_v60 : W7 m ρ c (Proc.devRef .tc main_v60) = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v60) = _
  after_results_simp
  exact w6_v60 m ρ c

theorem w7_v63 : W7 m ρ c (Proc.devRef .tc main_v63) = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v63) = _
  after_results_simp
  exact w6_v63 m ρ c

theorem w7_v76 : W7 m ρ c (Proc.devRef .tc main_v76) = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps3 (W6 m ρ c) (Proc.devRef .tc main_v76) = _
  after_results_simp
  rw [w6_v3 m ρ c, w6_v25 m ρ c, w6_v1 m ρ c, w6_v63 m ρ c]
  rfl

theorem w7_v87 : ∀ j : Fin 128, (W7 m ρ c (Proc.devRef .tc main_v87) : S1x128.Idx → EReal) (ValueIdx.ix2 (0 : Fin 1) j) = (val_main_v79 (F := Ideal) (m ((c : Thread nD τ).loc main_arg3)) : S128.Idx → EReal) (ValueIdx.ix1 j) := by
  intro j
  have e : (W7 m ρ c (Proc.devRef .tc main_v87) : S1x128.Idx → EReal) = shapeCast S1x128 (val_main_v79 (F := Ideal) (m ((c : Thread nD τ).loc main_arg3)) : S128.Idx → EReal) shapeCasts_S128_S1x128 := by
    show StableHlo.after hostOps3 (W6 m ρ c) (Proc.devRef .tc main_v87) = _
    after_results_simp
    rw [w6_arg3 m ρ c]
    rfl
  rw [e]
  exact Cert.LibReshapeAt.cast12 _ _ j

theorem w7_v88 : ∀ j : Fin 128, (W7 m ρ c (Proc.devRef .tc main_v88) : S1x128.Idx → EReal) (ValueIdx.ix2 (0 : Fin 1) j) = (val_main_v116 (F := Ideal) (m ((c : Thread nD τ).loc main_arg4)) : S128.Idx → EReal) (ValueIdx.ix1 j) := by
  intro j
  have e : (W7 m ρ c (Proc.devRef .tc main_v88) : S1x128.Idx → EReal) = shapeCast S1x128 (val_main_v116 (F := Ideal) (m ((c : Thread nD τ).loc main_arg4)) : S128.Idx → EReal) shapeCasts_S128_S1x128 := by
    show StableHlo.after hostOps3 (W6 m ρ c) (Proc.devRef .tc main_v88) = _
    after_results_simp
    rw [w6_arg4 m ρ c]
    rfl
  rw [e]
  exact Cert.LibReshapeAt.cast12 _ _ j

theorem w7_v89 : ∀ j : Fin 128, (W7 m ρ c (Proc.devRef .tc main_v89) : S1x128.Idx → EReal) (ValueIdx.ix2 (0 : Fin 1) j) = (val_main_v121 (F := Ideal) (m ((c : Thread nD τ).loc main_arg5)) : S128.Idx → EReal) (ValueIdx.ix1 j) := by
  intro j
  have e : (W7 m ρ c (Proc.devRef .tc main_v89) : S1x128.Idx → EReal) = shapeCast S1x128 (val_main_v121 (F := Ideal) (m ((c : Thread nD τ).loc main_arg5)) : S128.Idx → EReal) shapeCasts_S128_S1x128 := by
    show StableHlo.after hostOps3 (W6 m ρ c) (Proc.devRef .tc main_v89) = _
    after_results_simp
    rw [w6_arg5 m ρ c]
    rfl
  rw [e]
  exact Cert.LibReshapeAt.cast12 _ _ j

theorem w7_v90 : ∀ j : Fin 128, (W7 m ρ c (Proc.devRef .tc main_v90) : S1x128.Idx → EReal) (ValueIdx.ix2 (0 : Fin 1) j) = (val_main_v103 (F := Ideal) (m ((c : Thread nD τ).loc main_arg6)) : S128.Idx → EReal) (ValueIdx.ix1 j) := by
  intro j
  have e : (W7 m ρ c (Proc.devRef .tc main_v90) : S1x128.Idx → EReal) = shapeCast S1x128 (val_main_v103 (F := Ideal) (m ((c : Thread nD τ).loc main_arg6)) : S128.Idx → EReal) shapeCasts_S128_S1x128 := by
    show StableHlo.after hostOps3 (W6 m ρ c) (Proc.devRef .tc main_v90) = _
    after_results_simp
    rw [w6_arg6 m ρ c]
    rfl
  rw [e]
  exact Cert.LibReshapeAt.cast12 _ _ j

theorem w7_v91 : ∀ j : Fin 128, (W7 m ρ c (Proc.devRef .tc main_v91) : S1x128.Idx → EReal) (ValueIdx.ix2 (0 : Fin 1) j) = (val_main_v108 (F := Ideal) (m ((c : Thread nD τ).loc main_arg7)) : S128.Idx → EReal) (ValueIdx.ix1 j) := by
  intro j
  have e : (W7 m ρ c (Proc.devRef .tc main_v91) : S1x128.Idx → EReal) = shapeCast S1x128 (val_main_v108 (F := Ideal) (m ((c : Thread nD τ).loc main_arg7)) : S128.Idx → EReal) shapeCasts_S128_S1x128 := by
    show StableHlo.after hostOps3 (W6 m ρ c) (Proc.devRef .tc main_v91) = _
    after_results_simp
    rw [w6_arg7 m ρ c]
    rfl
  rw [e]
  exact Cert.LibReshapeAt.cast12 _ _ j

/-! ## Boundary 8 -/

theorem w8_arg2 : W8 m ρ c (Proc.devRef .tc main_arg2) = m ((c : Thread nD τ).loc main_arg2) :=
  (W8_of_ne m ρ c main_arg2 (by decide)).trans (w7_arg2 m ρ c)

theorem w8_arg3 : W8 m ρ c (Proc.devRef .tc main_arg3) = m ((c : Thread nD τ).loc main_arg3) :=
  (W8_of_ne m ρ c main_arg3 (by decide)).trans (w7_arg3 m ρ c)

theorem w8_arg4 : W8 m ρ c (Proc.devRef .tc main_arg4) = m ((c : Thread nD τ).loc main_arg4) :=
  (W8_of_ne m ρ c main_arg4 (by decide)).trans (w7_arg4 m ρ c)

theorem w8_arg5 : W8 m ρ c (Proc.devRef .tc main_arg5) = m ((c : Thread nD τ).loc main_arg5) :=
  (W8_of_ne m ρ c main_arg5 (by decide)).trans (w7_arg5 m ρ c)

theorem w8_arg6 : W8 m ρ c (Proc.devRef .tc main_arg6) = m ((c : Thread nD τ).loc main_arg6) :=
  (W8_of_ne m ρ c main_arg6 (by decide)).trans (w7_arg6 m ρ c)

theorem w8_arg7 : W8 m ρ c (Proc.devRef .tc main_arg7) = m ((c : Thread nD τ).loc main_arg7) :=
  (W8_of_ne m ρ c main_arg7 (by decide)).trans (w7_arg7 m ρ c)

theorem w8_arg8 : W8 m ρ c (Proc.devRef .tc main_arg8) = m ((c : Thread nD τ).loc main_arg8) :=
  (W8_of_ne m ρ c main_arg8 (by decide)).trans (w7_arg8 m ρ c)

theorem w8_arg9 : W8 m ρ c (Proc.devRef .tc main_arg9) = m ((c : Thread nD τ).loc main_arg9) :=
  (W8_of_ne m ρ c main_arg9 (by decide)).trans (w7_arg9 m ρ c)

theorem w8_v1 : W8 m ρ c (Proc.devRef .tc main_v1) = val_main_v1 (F := Ideal) (m ((c : Thread nD τ).loc main_arg1)) :=
  (W8_of_ne m ρ c main_v1 (by decide)).trans (w7_v1 m ρ c)

theorem w8_v3 : W8 m ρ c (Proc.devRef .tc main_v3) = val_main_v3 (F := Ideal) (m ((c : Thread nD τ).loc main_arg1)) :=
  (W8_of_ne m ρ c main_v3 (by decide)).trans (w7_v3 m ρ c)

theorem w8_v25 : W8 m ρ c (Proc.devRef .tc main_v25) = val_main_v25 (F := Ideal) (m ((c : Thread nD τ).loc main_arg1)) :=
  (W8_of_ne m ρ c main_v25 (by decide)).trans (w7_v25 m ρ c)

theorem w8_v28 : W8 m ρ c (Proc.devRef .tc main_v28) = val_main_v46 (F := Ideal) (m ((c : Thread nD τ).loc main_arg1)) :=
  ((W8_arr m ρ c 3).trans (((dat3 (V7 m ρ) c).arrAt_in 3 rfl _).trans (A_eq3 (V7 m ρ) c 3))).trans (w7_v28 m ρ c)

theorem w8_v92 : W8 m ρ c (Proc.devRef .tc main_v92) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W8_arr m ρ c 9).trans (Cert.KernelIdeal.CombineRegion.comb3_eq (V7 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w7_v76 m ρ c) (w7_v63 m ρ c) (w7_v60 m ρ c) (w7_v28 m ρ c) (w7_v87 m ρ c) (w7_v88 m ρ c) (w7_v89 m ρ c) (w7_v90 m ρ c) (w7_v91 m ρ c))

end Cert.KernelIdeal.Stages

end
-- ==== Proof.StagesC.lean ====
/-
  The memory boundary by boundary, third layer: as the second, with the third weight matrix and the third layer's rows.
-/
import proofs.«104718_j31121333027185_1_alg».proof.Proof.Gen.KernelIdeal.Frame
import proofs.«104718_j31121333027185_1_alg».proof.Proof.Gen.ReferenceIdeal.Read
import Idealize.ShloMosaic.Lib.StableHlo.Run
import Idealize.ShloMosaic.Lib.ValueIdx
import proofs.«104718_j31121333027185_1_alg».proof.Proof.LibReshapeAt
import proofs.«104718_j31121333027185_1_alg».proof.Proof.ProjRegion
import proofs.«104718_j31121333027185_1_alg».proof.Proof.CombineRegion
import proofs.«104718_j31121333027185_1_alg».proof.Proof.FcRegion
import proofs.«104718_j31121333027185_1_alg».proof.Proof.StagesB

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 9 -/

theorem w9_arg3 : W9 m ρ c (Proc.devRef .tc main_arg3) = m ((c : Thread nD τ).loc main_arg3) := by
  show StableHlo.after hostOps4 (W8 m ρ c) (Proc.devRef .tc main_arg3) = _
  after_results_simp
  exact w8_arg3 m ρ c

theorem w9_arg4 : W9 m ρ c (Proc.devRef .tc main_arg4) = m ((c : Thread nD τ).loc main_arg4) := by
  show StableHlo.after hostOps4 (W8 m ρ c) (Proc.devRef .tc main_arg4) = _
  after_results_simp
  exact w8_arg4 m ρ c

theorem w9_arg5 : W9 m ρ c (Proc.devRef .tc main_arg5) = m ((c : Thread nD τ).loc main_arg5) := by
  show StableHlo.after hostOps4 (W8 m ρ c) (Proc.devRef .tc main_arg5) = _
  after_results_simp
  exact w8_arg5 m ρ c

theorem w9_arg6 : W9 m ρ c (Proc.devRef .tc main_arg6) = m ((c : Thread nD τ).loc main_arg6) := by
  show StableHlo.after hostOps4 (W8 m ρ c) (Proc.devRef .tc main_arg6) = _
  after_results_simp
  exact w8_arg6 m ρ c

theorem w9_arg7 : W9 m ρ c (Proc.devRef .tc main_arg7) = m ((c : Thread nD τ).loc main_arg7) := by
  show StableHlo.after hostOps4 (W8 m ρ c) (Proc.devRef .tc main_arg7) = _
  after_results_simp
  exact w8_arg7 m ρ c

theorem w9_arg8 : W9 m ρ c (Proc.devRef .tc main_arg8) = m ((c : Thread nD τ).loc main_arg8) := by
  show StableHlo.after hostOps4 (W8 m ρ c) (Proc.devRef .tc main_arg8) = _
  after_results_simp
  exact w8_arg8 m ρ c

theorem w9_arg9 : W9 m ρ c (Proc.devRef .tc main_arg9) = m ((c : Thread nD τ).loc main_arg9) := by
  show StableHlo.after hostOps4 (W8 m ρ c) (Proc.devRef .tc main_arg9) = _
  after_results_simp
  exact w8_arg9 m ρ c

theorem w9_v1 : W9 m ρ c (Proc.devRef .tc main_v1) = val_main_v1 (F := Ideal) (m ((c : Thread nD τ).loc main_arg1)) := by
  show StableHlo.after hostOps4 (W8 m ρ c) (Proc.devRef .tc main_v1) = _
  after_results_simp
  exact w8_v1 m ρ c

theorem w9_v3 : W9 m ρ c (Proc.devRef .tc main_v3) = val_main_v3 (F := Ideal) (m ((c : Thread nD τ).loc main_arg1)) := by
  show StableHlo.after hostOps4 (W8 m ρ c) (Proc.devRef .tc main_v3) = _
  after_results_simp
  exact w8_v3 m ρ c

theorem w9_v25 : W9 m ρ c (Proc.devRef .tc main_v25) = val_main_v25 (F := Ideal) (m ((c : Thread nD τ).loc main_arg1)) := by
  show StableHlo.after hostOps4 (W8 m ρ c) (Proc.devRef .tc main_v25) = _
  after_results_simp
  exact w8_v25 m ρ c

theorem w9_v28 : W9 m ρ c (Proc.devRef .tc main_v28) = val_main_v46 (F := Ideal) (m ((c : Thread nD τ).loc main_arg1)) := by
  show StableHlo.after hostOps4 (W8 m ρ c) (Proc.devRef .tc main_v28) = _
  after_results_simp
  exact w8_v28 m ρ c

theorem w9_v92 : W9 m ρ c (Proc.devRef .tc main_v92) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps4 (W8 m ρ c) (Proc.devRef .tc main_v92) = _
  after_results_simp
  exact w8_v92 m ρ c

theorem w9_v94 : W9 m ρ c (Proc.devRef .tc main_v94) = val_main_v127 (F := Ideal) (m ((c : Thread nD τ).loc main_arg2)) := by
  show StableHlo.after hostOps4 (W8 m ρ c) (Proc.devRef .tc main_v94) = _
  after_results_simp
  rw [w8_arg2 m ρ c]
  rfl

/-! ## Boundary 10 -/

theorem w10_arg3 : W10 m ρ c (Proc.devRef .tc main_arg3) = m ((c : Thread nD τ).loc main_arg3) :=
  (W10_of_ne m ρ c main_arg3 (by decide)).trans (w9_arg3 m ρ c)

theorem w10_arg4 : W10 m ρ c (Proc.devRef .tc main_arg4) = m ((c : Thread nD τ).loc main_arg4) :=
  (W10_of_ne m ρ c main_arg4 (by decide)).trans (w9_arg4 m ρ c)

theorem w10_arg5 : W10 m ρ c (Proc.devRef .tc main_arg5) = m ((c : Thread nD τ).loc main_arg5) :=
  (W10_of_ne m ρ c main_arg5 (by decide)).trans (w9_arg5 m ρ c)

theorem w10_arg6 : W10 m ρ c (Proc.devRef .tc main_arg6) = m ((c : Thread nD τ).loc main_arg6) :=
  (W10_of_ne m ρ c main_arg6 (by decide)).trans (w9_arg6 m ρ c)

theorem w10_arg7 : W10 m ρ c (Proc.devRef .tc main_arg7) = m ((c : Thread nD τ).loc main_arg7) :=
  (W10_of_ne m ρ c main_arg7 (by decide)).trans (w9_arg7 m ρ c)

theorem w10_arg8 : W10 m ρ c (Proc.devRef .tc main_arg8) = m ((c : Thread nD τ).loc main_arg8) :=
  (W10_of_ne m ρ c main_arg8 (by decide)).trans (w9_arg8 m ρ c)

theorem w10_arg9 : W10 m ρ c (Proc.devRef .tc main_arg9) = m ((c : Thread nD τ).loc main_arg9) :=
  (W10_of_ne m ρ c main_arg9 (by decide)).trans (w9_arg9 m ρ c)

theorem w10_v1 : W10 m ρ c (Proc.devRef .tc main_v1) = val_main_v1 (F := Ideal) (m ((c : Thread nD τ).loc main_arg1)) :=
  (W10_of_ne m ρ c main_v1 (by decide)).trans (w9_v1 m ρ c)

theorem w10_v3 : W10 m ρ c (Proc.devRef .tc main_v3) = val_main_v3 (F := Ideal) (m ((c : Thread nD τ).loc main_arg1)) :=
  (W10_of_ne m ρ c main_v3 (by decide)).trans (w9_v3 m ρ c)

theorem w10_v25 : W10 m ρ c (Proc.devRef .tc main_v25) = val_main_v25 (F := Ideal) (m ((c : Thread nD τ).loc main_arg1)) :=
  (W10_of_ne m ρ c main_v25 (by decide)).trans (w9_v25 m ρ c)

theorem w10_v28 : W10 m ρ c (Proc.devRef .tc main_v28) = val_main_v46 (F := Ideal) (m ((c : Thread nD τ).loc main_arg1)) :=
  (W10_of_ne m ρ c main_v28 (by decide)).trans (w9_v28 m ρ c)

theorem w10_v92 : W10 m ρ c (Proc.devRef .tc main_v92) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  ((W10_arr m ρ c 0).trans (((dat4 (V9 m ρ) c).arrAt_in 0 rfl _).trans (A_eq4 (V9 m ρ) c 0))).trans (w9_v92 m ρ c)

theorem w10_v95 : W10 m ρ c (Proc.devRef .tc main_v95) = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W10_arr m ρ c 2).trans (Cert.KernelIdeal.ProjRegion.proj4_eq (V9 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w9_v92 m ρ c) (w9_v94 m ρ c))

/-! ## Boundary 11 -/

theorem w11_arg8 : W11 m ρ c (Proc.devRef .tc main_arg8) = m ((c : Thread nD τ).loc main_arg8) := by
  show StableHlo.after hostOps5 (W10 m ρ c) (Proc.devRef .tc main_arg8) = _
  after_results_simp
  exact w10_arg8 m ρ c

theorem w11_arg9 : W11 m ρ c (Proc.devRef .tc main_arg9) = m ((c : Thread nD τ).loc main_arg9) := by
  show StableHlo.after hostOps5 (W10 m ρ c) (Proc.devRef .tc main_arg9) = _
  after_results_simp
  exact w10_arg9 m ρ c

theorem w11_v28 : W11 m ρ c (Proc.devRef .tc main_v28) = val_main_v46 (F := Ideal) (m ((c : Thread nD τ).loc main_arg1)) := by
  show StableHlo.after hostOps5 (W10 m ρ c) (Proc.devRef .tc main_v28) = _
  after_results_simp
  exact w10_v28 m ρ c

theorem w11_v92 : W11 m ρ c (Proc.devRef .tc main_v92) = val_main_v125 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v92) = _
  after_results_simp
  exact w10_v92 m ρ c

theorem w11_v95 : W11 m ρ c (Proc.devRef .tc main_v95) = val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v95) = _
  after_results_simp
  exact w10_v95 m ρ c

theorem w11_v108 : W11 m ρ c (Proc.devRef .tc main_v108) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps5 (W10 m ρ c) (Proc.devRef .tc main_v108) = _
  after_results_simp
  rw [w10_v3 m ρ c, w10_v25 m ρ c, w10_v1 m ρ c, w10_v95 m ρ c]
  rfl

theorem w11_v119 : ∀ j : Fin 128, (W11 m ρ c (Proc.devRef .tc main_v119) : S1x128.Idx → EReal) (ValueIdx.ix2 (0 : Fin 1) j) = (val_main_v129 (F := Ideal) (m ((c : Thread nD τ).loc main_arg3)) : S128.Idx → EReal) (ValueIdx.ix1 j) := by
  intro j
  have e : (W11 m ρ c (Proc.devRef .tc main_v119) : S1x128.Idx → EReal) = shapeCast S1x128 (val_main_v129 (F := Ideal) (m ((c : Thread nD τ).loc main_arg3)) : S128.Idx → EReal) shapeCasts_S128_S1x128 := by
    show StableHlo.after hostOps5 (W10 m ρ c) (Proc.devRef .tc main_v119) = _
    after_results_simp
    rw [w10_arg3 m ρ c]
    rfl
  rw [e]
  exact Cert.LibReshapeAt.cast12 _ _ j

theorem w11_v120 : ∀ j : Fin 128, (W11 m ρ c (Proc.devRef .tc main_v120) : S1x128.Idx → EReal) (ValueIdx.ix2 (0 : Fin 1) j) = (val_main_v166 (F := Ideal) (m ((c : Thread nD τ).loc main_arg4)) : S128.Idx → EReal) (ValueIdx.ix1 j) := by
  intro j
  have e : (W11 m ρ c (Proc.devRef .tc main_v120) : S1x128.Idx → EReal) = shapeCast S1x128 (val_main_v166 (F := Ideal) (m ((c : Thread nD τ).loc main_arg4)) : S128.Idx → EReal) shapeCasts_S128_S1x128 := by
    show StableHlo.after hostOps5 (W10 m ρ c) (Proc.devRef .tc main_v120) = _
    after_results_simp
    rw [w10_arg4 m ρ c]
    rfl
  rw [e]
  exact Cert.LibReshapeAt.cast12 _ _ j

theorem w11_v121 : ∀ j : Fin 128, (W11 m ρ c (Proc.devRef .tc main_v121) : S1x128.Idx → EReal) (ValueIdx.ix2 (0 : Fin 1) j) = (val_main_v171 (F := Ideal) (m ((c : Thread nD τ).loc main_arg5)) : S128.Idx → EReal) (ValueIdx.ix1 j) := by
  intro j
  have e : (W11 m ρ c (Proc.devRef .tc main_v121) : S1x128.Idx → EReal) = shapeCast S1x128 (val_main_v171 (F := Ideal) (m ((c : Thread nD τ).loc main_arg5)) : S128.Idx → EReal) shapeCasts_S128_S1x128 := by
    show StableHlo.after hostOps5 (W10 m ρ c) (Proc.devRef .tc main_v121) = _
    after_results_simp
    rw [w10_arg5 m ρ c]
    rfl
  rw [e]
  exact Cert.LibReshapeAt.cast12 _ _ j

theorem w11_v122 : ∀ j : Fin 128, (W11 m ρ c (Proc.devRef .tc main_v122) : S1x128.Idx → EReal) (ValueIdx.ix2 (0 : Fin 1) j) = (val_main_v153 (F := Ideal) (m ((c : Thread nD τ).loc main_arg6)) : S128.Idx → EReal) (ValueIdx.ix1 j) := by
  intro j
  have e : (W11 m ρ c (Proc.devRef .tc main_v122) : S1x128.Idx → EReal) = shapeCast S1x128 (val_main_v153 (F := Ideal) (m ((c : Thread nD τ).loc main_arg6)) : S128.Idx → EReal) shapeCasts_S128_S1x128 := by
    show StableHlo.after hostOps5 (W10 m ρ c) (Proc.devRef .tc main_v122) = _
    after_results_simp
    rw [w10_arg6 m ρ c]
    rfl
  rw [e]
  exact Cert.LibReshapeAt.cast12 _ _ j

theorem w11_v123 : ∀ j : Fin 128, (W11 m ρ c (Proc.devRef .tc main_v123) : S1x128.Idx → EReal) (ValueIdx.ix2 (0 : Fin 1) j) = (val_main_v158 (F := Ideal) (m ((c : Thread nD τ).loc main_arg7)) : S128.Idx → EReal) (ValueIdx.ix1 j) := by
  intro j
  have e : (W11 m ρ c (Proc.devRef .tc main_v123) : S1x128.Idx → EReal) = shapeCast S1x128 (val_main_v158 (F := Ideal) (m ((c : Thread nD τ).loc main_arg7)) : S128.Idx → EReal) shapeCasts_S128_S1x128 := by
    show StableHlo.after hostOps5 (W10 m ρ c) (Proc.devRef .tc main_v123) = _
    after_results_simp
    rw [w10_arg7 m ρ c]
    rfl
  rw [e]
  exact Cert.LibReshapeAt.cast12 _ _ j

/-! ## Boundary 12 -/

theorem w12_arg8 : W12 m ρ c (Proc.devRef .tc main_arg8) = m ((c : Thread nD τ).loc main_arg8) :=
  (W12_of_ne m ρ c main_arg8 (by decide)).trans (w11_arg8 m ρ c)

theorem w12_arg9 : W12 m ρ c (Proc.devRef .tc main_arg9) = m ((c : Thread nD τ).loc main_arg9) :=
  (W12_of_ne m ρ c main_arg9 (by decide)).trans (w11_arg9 m ρ c)

theorem w12_v124 : W12 m ρ c (Proc.devRef .tc main_v124) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W12_arr m ρ c 9).trans (Cert.KernelIdeal.CombineRegion.comb5_eq (V11 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (w11_v108 m ρ c) (w11_v95 m ρ c) (w11_v92 m ρ c) (w11_v28 m ρ c) (w11_v119 m ρ c) (w11_v120 m ρ c) (w11_v121 m ρ c) (w11_v122 m ρ c) (w11_v123 m ρ c))

end Cert.KernelIdeal.Stages

end
-- ==== Proof.StagesD.lean ====
/-
  The memory at the last two boundaries: the bias is laid out as a 1×1 array and the last region leaves the logistic of the
  final linear layer — the reference's result — in the result buffer.
-/
import proofs.«104718_j31121333027185_1_alg».proof.Proof.Gen.KernelIdeal.Frame
import proofs.«104718_j31121333027185_1_alg».proof.Proof.Gen.ReferenceIdeal.Read
import Idealize.ShloMosaic.Lib.StableHlo.Run
import Idealize.ShloMosaic.Lib.ValueIdx
import proofs.«104718_j31121333027185_1_alg».proof.Proof.LibReshapeAt
import proofs.«104718_j31121333027185_1_alg».proof.Proof.ProjRegion
import proofs.«104718_j31121333027185_1_alg».proof.Proof.CombineRegion
import proofs.«104718_j31121333027185_1_alg».proof.Proof.FcRegion
import proofs.«104718_j31121333027185_1_alg».proof.Proof.StagesC

set_option maxRecDepth 16384

noncomputable section

namespace Cert.KernelIdeal.Stages

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Boundary 13 -/

theorem w13_arg8 : W13 m ρ c (Proc.devRef .tc main_arg8) = m ((c : Thread nD τ).loc main_arg8) := by
  show StableHlo.after hostOps6 (W12 m ρ c) (Proc.devRef .tc main_arg8) = _
  after_results_simp
  exact w12_arg8 m ρ c

theorem w13_v124 : W13 m ρ c (Proc.devRef .tc main_v124) = val_main_v175 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps6 (W12 m ρ c) (Proc.devRef .tc main_v124) = _
  after_results_simp
  exact w12_v124 m ρ c

theorem w13_v125 : (W13 m ρ c (Proc.devRef .tc main_v125) : S1x1.Idx → EReal) (ValueIdx.ix2 (0 : Fin 1) (0 : Fin 1)) = (m ((c : Thread nD τ).loc main_arg9) : S1.Idx → EReal) (ValueIdx.ix1 (0 : Fin 1)) := by
  have e : (W13 m ρ c (Proc.devRef .tc main_v125) : S1x1.Idx → EReal) = shapeCast S1x1 (m ((c : Thread nD τ).loc main_arg9) : S1.Idx → EReal) shapeCasts_S1_S1x1 := by
    show StableHlo.after hostOps6 (W12 m ρ c) (Proc.devRef .tc main_v125) = _
    after_results_simp
    rw [w12_arg9 m ρ c]
    rfl
  rw [e]
  exact Cert.LibReshapeAt.cast12 _ _ (0 : Fin 1)

/-! ## Boundary 14 -/

theorem w14_v126 : W14 m ρ c (Proc.devRef .tc main_v126) = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W14_arr m ρ c 3).trans (Cert.KernelIdeal.FcRegion.fc6_eq (V13 m ρ) c (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (w13_v124 m ρ c) (w13_arg8 m ρ c) (w13_v125 m ρ c))

/-- The result buffer after the whole run holds the reference's result stage of the launch arguments. -/
theorem kernel_result : W14 m ρ c (Proc.devRef .tc main_v126) = val_main_v185 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := w14_v126 m ρ c

end Cert.KernelIdeal.Stages

end
-- ==== Proof.lean ====
/-
  A three-layer graph convolution network on 50000 nodes and 800000 edges, against its plain reference.
  Both programs normalise the edges the same way (in-degree plus one, its inverse square root at both ends of an edge, and
  its inverse for the self loop), and per layer compute h·W, gather the rows at the edges' sources, weigh them, scatter-add
  them at the targets, add the self-loop term and the bias, add the previous layer from the second layer on, apply the
  evaluation-mode batch norm (x − mean)·rsqrt(var + ε)·γ + β and the rectifier; the result is the logistic 1/(1 + e^(−l)) of a
  final linear layer.  The kernel computes the dense steps in seven pipelined regions over blocks of 2000 rows and leaves the
  gathers and scatters to the host; the reference does everything on the host.  On the extended reals every step of the one
  is the same operation on the same operands as the matching step of the other (a matrix product is a sum over the 128
  contracted positions on both sides, a row broadcast reads the same entry, 0 − l = −l), so no algebraic law beyond reading both
  sides entry by entry is needed and the precondition is never opened.

  The kernel's run leaves the result buffer at the last boundary's contents (KRun); boundary by boundary these contents are the
  reference's stages of the same arguments (StagesA–StagesD over the region modules); the reference's run ends at its last
  stage (the generated run and its stage-by-stage reading).
-/
import proofs.«104718_j31121333027185_1_alg».proof.Defs
import proofs.«104718_j31121333027185_1_alg».proof.Proof.Gen.Kernel
import proofs.«104718_j31121333027185_1_alg».proof.Proof.Gen.Kernel.Skeleton
import proofs.«104718_j31121333027185_1_alg».proof.Proof.Gen.Kernel.Launch
import proofs.«104718_j31121333027185_1_alg».proof.Proof.Gen.Kernel.Points
import proofs.«104718_j31121333027185_1_alg».proof.Proof.Gen.Kernel.Frame
import proofs.«104718_j31121333027185_1_alg».proof.Proof.Gen.KernelIdeal
import proofs.«104718_j31121333027185_1_alg».proof.Proof.Gen.KernelIdeal.Skeleton
import proofs.«104718_j31121333027185_1_alg».proof.Proof.Gen.KernelIdeal.Launch
import proofs.«104718_j31121333027185_1_alg».proof.Proof.Gen.KernelIdeal.Points
import proofs.«104718_j31121333027185_1_alg».proof.Proof.Gen.KernelIdeal.Frame
import proofs.«104718_j31121333027185_1_alg».proof.Proof.Gen.ReferenceIdeal
import proofs.«104718_j31121333027185_1_alg».proof.Proof.Gen.Pre_finite_inputs
import proofs.«104718_j31121333027185_1_alg».proof.Proof.Gen.ReferenceIdeal.Run
import proofs.«104718_j31121333027185_1_alg».proof.Proof.Gen.ReferenceIdeal.Read
import proofs.«104718_j31121333027185_1_alg».proof.Proof.KRun
import proofs.«104718_j31121333027185_1_alg».proof.Proof.StagesD
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments: the generated frame. -/
theorem frame_kernel [Cert.Kernel.Facts] [Cert.Pre_finite_inputs.Facts] : Cert.frame_Kernel :=
  fun m ρ _ => Cert.Kernel.Gen.frame m ρ

/-- The idealized kernel runs and keeps its arguments: the generated frame. -/
theorem frame_kernelIdeal [Cert.KernelIdeal.Facts] [Cert.Pre_finite_inputs.Facts] : Cert.frame_KernelIdeal :=
  fun m ρ _ => Cert.KernelIdeal.Gen.frame m ρ

/-- The reference runs and keeps its arguments: its generated run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both runs end with the reference's last stage of the (agreeing) arguments in the result buffer. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v185 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Stages.kernel_result m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v185_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
